-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S2x262144 : Shape := ⟨2, ![2, 262144]⟩
abbrev S262144 : Shape := ⟨1, ![262144]⟩
abbrev S2x65536 : Shape := ⟨2, ![2, 65536]⟩
abbrev S256x768 : Shape := ⟨2, ![256, 768]⟩
abbrev S256x512 : Shape := ⟨2, ![256, 512]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256x512 : S_.BroadcastsInDim S256x512 (![] : Fin 0 → Fin S256x512.rank)
  reducesTo_S256x512_S_d0_1 : S256x512.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg8 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S131072x256 .f32) (main_arg1 : IVec S131072 32) (main_arg2 : IVec S2x262144 32) (main_arg3 : IVec S262144 32) (main_arg4 : IVec S2x65536 32) (main_arg5 : FVec F S256x768 .f32) (main_arg6 : FVec F S256x512 .f32) (main_arg7 : FVec F S256x256 .f32) (main_arg8 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x768 .f32 := Host.absf main_arg5
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256x512 .f32 := Host.absf main_arg6
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_v13 main_v16
-- ==== Kernel.lean ====
abbrev S131072x256 : Shape := ⟨2, ![131072, 256]⟩
abbrev S131072 : Shape := ⟨1, ![131072]⟩
abbrev S2x262144 : Shape := ⟨2, ![2, 262144]⟩
abbrev S262144 : Shape := ⟨1, ![262144]⟩
abbrev S2x65536 : Shape := ⟨2, ![2, 65536]⟩
abbrev S256x768 : Shape := ⟨2, ![256, 768]⟩
abbrev S256x512 : Shape := ⟨2, ![256, 512]⟩
abbrev S256x256 : Shape := ⟨2, ![256, 256]⟩
abbrev S1x262144 : Shape := ⟨2, ![1, 262144]⟩
abbrev S1x65536 : Shape := ⟨2, ![1, 65536]⟩
abbrev S65536 : Shape := ⟨1, ![65536]⟩
abbrev S_ : Shape := ⟨0, ![]⟩
abbrev S262144x1 : Shape := ⟨2, ![262144, 1]⟩
abbrev S262144x256 : Shape := ⟨2, ![262144, 256]⟩
abbrev S65536x256 : Shape := ⟨2, ![65536, 256]⟩
abbrev S16384x256 : Shape := ⟨2, ![16384, 256]⟩
abbrev S131072x1 : Shape := ⟨2, ![131072, 1]⟩
abbrev S16384x1 : Shape := ⟨2, ![16384, 1]⟩
abbrev S65536x1 : Shape := ⟨2, ![65536, 1]⟩
abbrev S65536x512 : Shape := ⟨2, ![65536, 512]⟩
abbrev S4096x256 : Shape := ⟨2, ![4096, 256]⟩
abbrev S4096x512 : Shape := ⟨2, ![4096, 512]⟩

abbrev nBuf : Space → Nat
  | .hbm => 104
  | .vmem => 25
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S2x262144, .i32⟩
  | .hbm, ⟨3, _⟩ => ⟨S262144, .i32⟩
  | .hbm, ⟨4, _⟩ => ⟨S2x65536, .i32⟩
  | .hbm, ⟨5, _⟩ => ⟨S256x768, .f32⟩
  | .hbm, ⟨6, _⟩ => ⟨S256x512, .f32⟩
  | .hbm, ⟨7, _⟩ => ⟨S256x256, .f32⟩
  | .hbm, ⟨8, _⟩ => ⟨S256x256, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S1x65536, .i32⟩
  | .hbm, ⟨14, _⟩ => ⟨S65536, .i32⟩
  | .hbm, ⟨15, _⟩ => ⟨S1x65536, .i32⟩
  | .hbm, ⟨16, _⟩ => ⟨S65536, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x256, .f32⟩
  | .hbm, ⟨26, _⟩ => ⟨S_, .f32⟩
  | .hbm, ⟨27, _⟩ => ⟨S65536x256, .f32⟩
  | .hbm, ⟨28, _⟩ => ⟨S262144x1, .i32⟩
  | .hbm, ⟨29, _⟩ => ⟨S65536x256, .f32⟩
  | .hbm, ⟨30, _⟩ => ⟨S_, .f32⟩
  | .hbm, ⟨31, _⟩ => ⟨S16384x256, .f32⟩
  | .hbm, ⟨32, _⟩ => ⟨S131072x1, .i32⟩
  | .hbm, ⟨33, _⟩ => ⟨S16384x256, .f32⟩
  | .hbm, ⟨34, _⟩ => ⟨S_, .f32⟩
  | .hbm, ⟨35, _⟩ => ⟨S131072x1, .f32⟩
  | .hbm, ⟨36, _⟩ => ⟨S_, .f32⟩
  | .hbm, ⟨37, _⟩ => ⟨S16384x1, .f32⟩
  | .hbm, ⟨38, _⟩ => ⟨S131072x1, .i32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x256, .f32⟩
  | .hbm, ⟨44, _⟩ => ⟨S16384x256, .f32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x256, .f32⟩
  | .hbm, ⟨54, _⟩ => ⟨S_, .f32⟩
  | .hbm, ⟨55, _⟩ => ⟨S131072x256, .f32⟩
  | .hbm, ⟨56, _⟩ => ⟨S262144x1, .i32⟩
  | .hbm, ⟨57, _⟩ => ⟨S131072x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S256x256, .f32⟩
  | .hbm, ⟨68, _⟩ => ⟨S256x512, .f32⟩
  | .hbm, ⟨69, _⟩ => ⟨S256x512, .f32⟩
  | .hbm, ⟨70, _⟩ => ⟨S256x256, .f32⟩
  | .hbm, ⟨71, _⟩ => ⟨S256x256, .f32⟩
  | .hbm, ⟨72, _⟩ => ⟨S65536x512, .f32⟩
  | .hbm, ⟨73, _⟩ => ⟨S65536x256, .f32⟩
  | .hbm, ⟨74, _⟩ => ⟨S65536x256, .f32⟩
  | .hbm, ⟨75, _⟩ => ⟨S_, .i32⟩
  | .hbm, ⟨76, _⟩ => ⟨S262144, .i32⟩
  | .hbm, ⟨77, _⟩ => ⟨S262144, .i1⟩
  | .hbm, ⟨78, _⟩ => ⟨S_, .i32⟩
  | .hbm, ⟨79, _⟩ => ⟨S262144, .i32⟩
  | .hbm, ⟨80, _⟩ => ⟨S262144, .i32⟩
  | .hbm, ⟨81, _⟩ => ⟨S262144, .i32⟩
  | .hbm, ⟨82, _⟩ => ⟨S262144x1, .i32⟩
  | .hbm, ⟨83, _⟩ => ⟨S262144x256, .f32⟩
  | .hbm, ⟨84, _⟩ => ⟨S_, .f32⟩
  | .hbm, ⟨85, _⟩ => ⟨S131072x256, .f32⟩
  | .hbm, ⟨86, _⟩ => ⟨S262144x1, .i32⟩
  | .hbm, ⟨87, _⟩ => ⟨S131072x256, .f32⟩
  | .hbm, ⟨88, _⟩ => ⟨S_, .f32⟩
  | .hbm, ⟨89, _⟩ => ⟨S16384x256, .f32⟩
  | .hbm, ⟨90, _⟩ => ⟨S65536x1, .i32⟩
  | .hbm, ⟨91, _⟩ => ⟨S16384x256, .f32⟩
  | .hbm, ⟨92, _⟩ => ⟨S16384x256, .f32⟩
  | .hbm, ⟨93, _⟩ => ⟨S_, .i32⟩
  | .hbm, ⟨94, _⟩ => ⟨S131072, .i32⟩
  | .hbm, ⟨95, _⟩ => ⟨S131072, .i1⟩
  | .hbm, ⟨96, _⟩ => ⟨S_, .i32⟩
  | .hbm, ⟨97, _⟩ => ⟨S131072, .i32⟩
  | .hbm, ⟨98, _⟩ => ⟨S131072, .i32⟩
  | .hbm, ⟨99, _⟩ => ⟨S131072, .i32⟩
  | .hbm, ⟨100, _⟩ => ⟨S131072x1, .i32⟩
  | .hbm, ⟨101, _⟩ => ⟨S131072x256, .f32⟩
  | .hbm, ⟨102, _⟩ => ⟨S131072x256, .f32⟩
  | .hbm, ⟨103, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x512, .f32⟩
  | .local _ .vmem, ⟨5, _⟩ => ⟨S256x512, .f32⟩
  | .local _ .vmem, ⟨6, _⟩ => ⟨S4096x512, .f32⟩
  | .local _ .vmem, ⟨7, _⟩ => ⟨S4096x512, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S256x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | .local _ .vmem, ⟨21, _⟩ => ⟨S256x256, .f32⟩
  | .local _ .vmem, ⟨22, _⟩ => ⟨S256x256, .f32⟩
  | .local _ .vmem, ⟨23, _⟩ => ⟨S4096x256, .f32⟩
  | .local _ .vmem, ⟨24, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_c_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_12 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S262144 : S_.BroadcastsInDim S262144 (![] : Fin 0 → Fin S262144.rank)
  bcast_S262144_S262144x1_0 : S262144.BroadcastsInDim S262144x1 (![0] : Fin 1 → Fin S262144x1.rank)
  bcast_S_S65536x256 : S_.BroadcastsInDim S65536x256 (![] : Fin 0 → Fin S65536x256.rank)
  bcast_S_S16384x256 : S_.BroadcastsInDim S16384x256 (![] : Fin 0 → Fin S16384x256.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S131072x256 : S_.BroadcastsInDim S131072x256 (![] : Fin 0 → Fin S131072x256.rank)
  slices_S256x768_S256x256_0_0 : S256x768.Slices ![0, 0] S256x256
  transposes_S256x256_S256x256_1_0 : S256x256.Transposes [1, 0] S256x256
  slices_S256x768_S256x256_0_256 : S256x768.Slices ![0, 256] S256x256
  slices_S256x768_S256x256_0_512 : S256x768.Slices ![0, 512] S256x256
  slices_S256x512_S256x256_0_0 : S256x512.Slices ![0, 0] S256x256
  slices_S256x512_S256x256_0_256 : S256x512.Slices ![0, 256] S256x256
  concatenates_S256x256_S256x256_S256x512_d1 : Shape.Concatenates [S256x256, S256x256] S256x512 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  slices_S65536x512_S65536x256_0_0 : S65536x512.Slices ![0, 0] S65536x256
  slices_S65536x512_S65536x256_0_256 : S65536x512.Slices ![0, 256] S65536x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S131072 : S_.BroadcastsInDim S131072 (![] : Fin 0 → Fin S131072.rank)
  gather_S131072x256_S262144x1_S262144x256_1_0_n_n_0_1_1256_wf : GatherDims.WF S131072x256 S262144x1 S262144x256 [1] [0] [] [0] [] 1 ![1, 256]
  scatter_S65536x256_S262144x1_S262144x256_1_0_0_1_wf : ScatterDims.WF S65536x256 S262144x1 S262144x256 [1] [0] [0] 1
  scatter_S16384x256_S131072x1_S131072x256_1_0_0_1_wf : ScatterDims.WF S16384x256 S131072x1 S131072x256 [1] [0] [0] 1
  scatter_S16384x1_S131072x1_S131072x1_1_0_0_1_wf : ScatterDims.WF S16384x1 S131072x1 S131072x1 [1] [0] [0] 1
  gather_S16384x256_S65536x1_S65536x256_1_0_n_n_0_1_1256_wf : GatherDims.WF S16384x256 S65536x1 S65536x256 [1] [0] [] [0] [] 1 ![1, 256]
  scatter_S131072x256_S262144x1_S262144x256_1_0_0_1_wf : ScatterDims.WF S131072x256 S262144x1 S262144x256 [1] [0] [0] 1
  dot_S4096x256_S256x512_S4096x512_1_0_0_1_n_n_wf : DotDims.WF S4096x256 S256x512 S4096x512 [1] [0] [0] [1] [] []
  gather_S65536x256_S262144x1_S262144x256_1_0_n_n_0_1_1256_wf : GatherDims.WF S65536x256 S262144x1 S262144x256 [1] [0] [] [0] [] 1 ![1, 256]
  scatter_S16384x256_S65536x1_S65536x256_1_0_0_1_wf : ScatterDims.WF S16384x256 S65536x1 S65536x256 [1] [0] [0] 1
  dot_S4096x256_S256x256_S4096x256_1_0_0_1_n_n_wf : DotDims.WF S4096x256 S256x256 S4096x256 [1] [0] [0] [1] [] []
  gather_S16384x256_S131072x1_S131072x256_1_0_n_n_0_1_1256_wf : GatherDims.WF S16384x256 S131072x1 S131072x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S65536x512.size a
  hwx0_4 : ∀ i : grid0.Coords, EltTy.bits .f32 = 32 ∨ (Rect.block (s := S65536x512) S4096x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .f32 = 32 ∨ (Rect.block (s := S16384x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S16384x256.size a
  hwx1_1 : ∀ i : grid1.Coords, EltTy.bits .f32 = 32 ∨ (Rect.block (s := S16384x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S16384x256.size a
  hwx1_3 : ∀ i : grid1.Coords, EltTy.bits .f32 = 32 ∨ (Rect.block (s := S16384x256) S4096x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S131072x256.size a
  hwx2_0 : ∀ i : grid2.Coords, EltTy.bits .f32 = 32 ∨ (Rect.block (s := S131072x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S131072x256.size a
  hwx2_1 : ∀ i : grid2.Coords, EltTy.bits .f32 = 32 ∨ (Rect.block (s := S131072x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S131072x256.size a
  hwx2_2 : ∀ i : grid2.Coords, EltTy.bits .f32 = 32 ∨ (Rect.block (s := S131072x256) S4096x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S131072x256.size a
  hwx2_5 : ∀ i : grid2.Coords, EltTy.bits .f32 = 32 ∨ (Rect.block (s := S131072x256) S4096x256.size (cc2_transform_5 i) (hinb2_5 i)).WholeWords (EltTy.packing .f32)

variable [Facts₀]

def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def scatter_S16384x256_S131072x1_S131072x256_1_0_0_1 : ScatterDims S16384x256 S131072x1 S131072x256 where
  updateWindowDims := [1]
  insertedWindowDims := [0]
  scatterDimsToOperandDims := [0]
  indexVectorDim := 1
  wf := scatter_S16384x256_S131072x1_S131072x256_1_0_0_1_wf
def scatter_S16384x1_S131072x1_S131072x1_1_0_0_1 : ScatterDims S16384x1 S131072x1 S131072x1 where
  updateWindowDims := [1]
  insertedWindowDims := [0]
  scatterDimsToOperandDims := [0]
  indexVectorDim := 1
  wf := scatter_S16384x1_S131072x1_S131072x1_1_0_0_1_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def scatter_S131072x256_S262144x1_S262144x256_1_0_0_1 : ScatterDims S131072x256 S262144x1 S262144x256 where
  updateWindowDims := [1]
  insertedWindowDims := [0]
  scatterDimsToOperandDims := [0]
  indexVectorDim := 1
  wf := scatter_S131072x256_S262144x1_S262144x256_1_0_0_1_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S16384x256_S131072x1_S131072x256_1_0_n_n_0_1_1256 : GatherDims S16384x256 S131072x1 S131072x256 where
  offsetDims := [1]
  collapsedSliceDims := [0]
  operandBatchingDims := []
  startIndicesBatchingDims := []
  startIndexMap := [0]
  indexVectorDim := 1
  sliceSizes := ![1, 256]
  wf := gather_S16384x256_S131072x1_S131072x256_1_0_n_n_0_1_1256_wf

abbrev win0_0 : Pipeline.Window sig grid0 :=
  Pipeline.Window.ofSpec (Memref.whole main_v17) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S4096x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S4096x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S4096x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S131072x256 : Shape := ⟨2, ![131072, 256]⟩
abbrev S131072 : Shape := ⟨1, ![131072]⟩
abbrev S2x262144 : Shape := ⟨2, ![2, 262144]⟩
abbrev S262144 : Shape := ⟨1, ![262144]⟩
abbrev S2x65536 : Shape := ⟨2, ![2, 65536]⟩
abbrev S256x768 : Shape := ⟨2, ![256, 768]⟩
abbrev S256x512 : Shape := ⟨2, ![256, 512]⟩
abbrev S256x256 : Shape := ⟨2, ![256, 256]⟩
abbrev S1x262144 : Shape := ⟨2, ![1, 262144]⟩
abbrev S_ : Shape := ⟨0, ![]⟩
abbrev S262144x1 : Shape := ⟨2, ![262144, 1]⟩
abbrev S262144x256 : Shape := ⟨2, ![262144, 256]⟩
abbrev S65536x256 : Shape := ⟨2, ![65536, 256]⟩
abbrev S16384x256 : Shape := ⟨2, ![16384, 256]⟩
abbrev S131072x1 : Shape := ⟨2, ![131072, 1]⟩
abbrev S16384x1 : Shape := ⟨2, ![16384, 1]⟩
abbrev S1x65536 : Shape := ⟨2, ![1, 65536]⟩
abbrev S65536 : Shape := ⟨1, ![65536]⟩
abbrev S65536x1 : Shape := ⟨2, ![65536, 1]⟩
abbrev S131072x768 : Shape := ⟨2, ![131072, 768]⟩
abbrev S16384x512 : Shape := ⟨2, ![16384, 512]⟩
abbrev S512x256 : Shape := ⟨2, ![512, 256]⟩
abbrev S768x256 : Shape := ⟨2, ![768, 256]⟩

abbrev nBuf : Space → Nat
  | .hbm => 116
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S2x262144, .i32⟩
  | .hbm, ⟨3, _⟩ => ⟨S262144, .i32⟩
  | .hbm, ⟨4, _⟩ => ⟨S2x65536, .i32⟩
  | .hbm, ⟨5, _⟩ => ⟨S256x768, .f32⟩
  | .hbm, ⟨6, _⟩ => ⟨S256x512, .f32⟩
  | .hbm, ⟨7, _⟩ => ⟨S256x256, .f32⟩
  | .hbm, ⟨8, _⟩ => ⟨S256x256, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S_, .f32⟩
  | .hbm, ⟨23, _⟩ => ⟨S65536x256, .f32⟩
  | .hbm, ⟨24, _⟩ => ⟨S262144x1, .i32⟩
  | .hbm, ⟨25, _⟩ => ⟨S65536x256, .f32⟩
  | .hbm, ⟨26, _⟩ => ⟨S_, .f32⟩
  | .hbm, ⟨27, _⟩ => ⟨S16384x256, .f32⟩
  | .hbm, ⟨28, _⟩ => ⟨S131072x1, .i32⟩
  | .hbm, ⟨29, _⟩ => ⟨S16384x256, .f32⟩
  | .hbm, ⟨30, _⟩ => ⟨S_, .f32⟩
  | .hbm, ⟨31, _⟩ => ⟨S131072x1, .f32⟩
  | .hbm, ⟨32, _⟩ => ⟨S_, .f32⟩
  | .hbm, ⟨33, _⟩ => ⟨S16384x1, .f32⟩
  | .hbm, ⟨34, _⟩ => ⟨S131072x1, .i32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x256, .f32⟩
  | .hbm, ⟨40, _⟩ => ⟨S16384x256, .f32⟩
  | .hbm, ⟨41, _⟩ => ⟨S1x65536, .i32⟩
  | .hbm, ⟨42, _⟩ => ⟨S65536, .i32⟩
  | .hbm, ⟨43, _⟩ => ⟨S_, .i32⟩
  | .hbm, ⟨44, _⟩ => ⟨S65536, .i32⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S65536, .i32⟩
  | .hbm, ⟨49, _⟩ => ⟨S65536, .i32⟩
  | .hbm, ⟨50, _⟩ => ⟨S65536x1, .i32⟩
  | .hbm, ⟨51, _⟩ => ⟨S65536x256, .f32⟩
  | .hbm, ⟨52, _⟩ => ⟨S_, .f32⟩
  | .hbm, ⟨53, _⟩ => ⟨S131072x256, .f32⟩
  | .hbm, ⟨54, _⟩ => ⟨S262144x1, .i32⟩
  | .hbm, ⟨55, _⟩ => ⟨S131072x256, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x256, .f32⟩
  | .hbm, ⟨65, _⟩ => ⟨S_, .f32⟩
  | .hbm, ⟨66, _⟩ => ⟨S131072x256, .f32⟩
  | .hbm, ⟨67, _⟩ => ⟨S262144x1, .i32⟩
  | .hbm, ⟨68, _⟩ => ⟨S131072x256, .f32⟩
  | .hbm, ⟨69, _⟩ => ⟨S_, .i32⟩
  | .hbm, ⟨70, _⟩ => ⟨S262144, .i32⟩
  | .hbm, ⟨71, _⟩ => ⟨S262144, .i1⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S262144, .i32⟩
  | .hbm, ⟨76, _⟩ => ⟨S262144x1, .i32⟩
  | .hbm, ⟨77, _⟩ => ⟨S262144x256, .f32⟩
  | .hbm, ⟨78, _⟩ => ⟨S_, .f32⟩
  | .hbm, ⟨79, _⟩ => ⟨S131072x256, .f32⟩
  | .hbm, ⟨80, _⟩ => ⟨S262144x1, .i32⟩
  | .hbm, ⟨81, _⟩ => ⟨S131072x256, .f32⟩
  | .hbm, ⟨82, _⟩ => ⟨S131072x768, .f32⟩
  | .hbm, ⟨83, _⟩ => ⟨S1x65536, .i32⟩
  | .hbm, ⟨84, _⟩ => ⟨S65536, .i32⟩
  | .hbm, ⟨85, _⟩ => ⟨S_, .f32⟩
  | .hbm, ⟨86, _⟩ => ⟨S16384x256, .f32⟩
  | .hbm, ⟨87, _⟩ => ⟨S65536x1, .i32⟩
  | .hbm, ⟨88, _⟩ => ⟨S16384x256, .f32⟩
  | .hbm, ⟨89, _⟩ => ⟨S1x65536, .i32⟩
  | .hbm, ⟨90, _⟩ => ⟨S65536, .i32⟩
  | .hbm, ⟨91, _⟩ => ⟨S_, .f32⟩
  | .hbm, ⟨92, _⟩ => ⟨S16384x256, .f32⟩
  | .hbm, ⟨93, _⟩ => ⟨S65536x1, .i32⟩
  | .hbm, ⟨94, _⟩ => ⟨S16384x256, .f32⟩
  | .hbm, ⟨95, _⟩ => ⟨S16384x512, .f32⟩
  | .hbm, ⟨96, _⟩ => ⟨S256x256, .f32⟩
  | .hbm, ⟨97, _⟩ => ⟨S16384x256, .f32⟩
  | .hbm, ⟨98, _⟩ => ⟨S512x256, .f32⟩
  | .hbm, ⟨99, _⟩ => ⟨S16384x256, .f32⟩
  | .hbm, ⟨100, _⟩ => ⟨S16384x256, .f32⟩
  | .hbm, ⟨101, _⟩ => ⟨S256x256, .f32⟩
  | .hbm, ⟨102, _⟩ => ⟨S131072x256, .f32⟩
  | .hbm, ⟨103, _⟩ => ⟨S768x256, .f32⟩
  | .hbm, ⟨104, _⟩ => ⟨S131072x256, .f32⟩
  | .hbm, ⟨105, _⟩ => ⟨S131072x256, .f32⟩
  | .hbm, ⟨106, _⟩ => ⟨S_, .i32⟩
  | .hbm, ⟨107, _⟩ => ⟨S131072, .i32⟩
  | .hbm, ⟨108, _⟩ => ⟨S131072, .i1⟩
  | .hbm, ⟨109, _⟩ => ⟨S_, .i32⟩
  | .hbm, ⟨110, _⟩ => ⟨S131072, .i32⟩
  | .hbm, ⟨111, _⟩ => ⟨S131072, .i32⟩
  | .hbm, ⟨112, _⟩ => ⟨S131072, .i32⟩
  | .hbm, ⟨113, _⟩ => ⟨S131072x1, .i32⟩
  | .hbm, ⟨114, _⟩ => ⟨S131072x256, .f32⟩
  | .hbm, ⟨115, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_c_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S65536x256 : S_.BroadcastsInDim S65536x256 (![] : Fin 0 → Fin S65536x256.rank)
  bcast_S_S16384x256 : S_.BroadcastsInDim S16384x256 (![] : Fin 0 → Fin S16384x256.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  slices_S2x65536_S1x65536_0_0 : S2x65536.Slices ![0, 0] S1x65536
  shapeCasts_S1x65536_S65536 : S1x65536.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S131072x256 : S_.BroadcastsInDim S131072x256 (![] : Fin 0 → Fin S131072x256.rank)
  concatenates_S131072x256_S131072x256_S131072x256_S131072x768_d1 : Shape.Concatenates [S131072x256, S131072x256, S131072x256] S131072x768 1
  slices_S2x65536_S1x65536_1_0 : S2x65536.Slices ![1, 0] S1x65536
  concatenates_S16384x256_S16384x256_S16384x512_d1 : Shape.Concatenates [S16384x256, S16384x256] S16384x512 1
  transposes_S256x256_S256x256_1_0 : S256x256.Transposes [1, 0] S256x256
  transposes_S256x512_S512x256_1_0 : S256x512.Transposes [1, 0] S512x256
  transposes_S256x768_S768x256_1_0 : S256x768.Transposes [1, 0] S768x256
  bcast_S_S131072 : S_.BroadcastsInDim S131072 (![] : Fin 0 → Fin S131072.rank)
  gather_S131072x256_S262144x1_S262144x256_1_0_n_n_0_1_1256_wf : GatherDims.WF S131072x256 S262144x1 S262144x256 [1] [0] [] [0] [] 1 ![1, 256]
  scatter_S65536x256_S262144x1_S262144x256_1_0_0_1_wf : ScatterDims.WF S65536x256 S262144x1 S262144x256 [1] [0] [0] 1
  scatter_S16384x256_S131072x1_S131072x256_1_0_0_1_wf : ScatterDims.WF S16384x256 S131072x1 S131072x256 [1] [0] [0] 1
  scatter_S16384x1_S131072x1_S131072x1_1_0_0_1_wf : ScatterDims.WF S16384x1 S131072x1 S131072x1 [1] [0] [0] 1
  gather_S16384x256_S65536x1_S65536x256_1_0_n_n_0_1_1256_wf : GatherDims.WF S16384x256 S65536x1 S65536x256 [1] [0] [] [0] [] 1 ![1, 256]
  scatter_S131072x256_S262144x1_S262144x256_1_0_0_1_wf : ScatterDims.WF S131072x256 S262144x1 S262144x256 [1] [0] [0] 1
  gather_S65536x256_S262144x1_S262144x256_1_0_n_n_0_1_1256_wf : GatherDims.WF S65536x256 S262144x1 S262144x256 [1] [0] [] [0] [] 1 ![1, 256]
  scatter_S16384x256_S65536x1_S65536x256_1_0_0_1_wf : ScatterDims.WF S16384x256 S65536x1 S65536x256 [1] [0] [0] 1
  dot_S16384x256_S256x256_S16384x256_1_0_0_1_n_n_wf : DotDims.WF S16384x256 S256x256 S16384x256 [1] [0] [0] [1] [] []
  dot_S16384x512_S512x256_S16384x256_1_0_0_1_n_n_wf : DotDims.WF S16384x512 S512x256 S16384x256 [1] [0] [0] [1] [] []
  dot_S131072x256_S256x256_S131072x256_1_0_0_1_n_n_wf : DotDims.WF S131072x256 S256x256 S131072x256 [1] [0] [0] [1] [] []
  dot_S131072x768_S768x256_S131072x256_1_0_0_1_n_n_wf : DotDims.WF S131072x768 S768x256 S131072x256 [1] [0] [0] [1] [] []
  gather_S16384x256_S131072x1_S131072x256_1_0_n_n_0_1_1256_wf : GatherDims.WF S16384x256 S131072x1 S131072x256 [1] [0] [] [0] [] 1 ![1, 256]

variable [Facts₀]

def gather_S131072x256_S262144x1_S262144x256_1_0_n_n_0_1_1256 : GatherDims S131072x256 S262144x1 S262144x256 where
  offsetDims := [1]
  collapsedSliceDims := [0]
  operandBatchingDims := []
  startIndicesBatchingDims := []
  startIndexMap := [0]
  indexVectorDim := 1
  sliceSizes := ![1, 256]
  wf := gather_S131072x256_S262144x1_S262144x256_1_0_n_n_0_1_1256_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def scatter_S16384x256_S131072x1_S131072x256_1_0_0_1 : ScatterDims S16384x256 S131072x1 S131072x256 where
  updateWindowDims := [1]
  insertedWindowDims := [0]
  scatterDimsToOperandDims := [0]
  indexVectorDim := 1
  wf := scatter_S16384x256_S131072x1_S131072x256_1_0_0_1_wf
def scatter_S16384x1_S131072x1_S131072x1_1_0_0_1 : ScatterDims S16384x1 S131072x1 S131072x1 where
  updateWindowDims := [1]
  insertedWindowDims := [0]
  scatterDimsToOperandDims := [0]
  indexVectorDim := 1
  wf := scatter_S16384x1_S131072x1_S131072x1_1_0_0_1_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def scatter_S131072x256_S262144x1_S262144x256_1_0_0_1 : ScatterDims S131072x256 S262144x1 S262144x256 where
  updateWindowDims := [1]
  insertedWindowDims := [0]
  scatterDimsToOperandDims := [0]
  indexVectorDim := 1
  wf := scatter_S131072x256_S262144x1_S262144x256_1_0_0_1_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x768_S768x256_S131072x256_1_0_0_1_n_n : DotDims S131072x768 S768x256 S131072x256 where
  lhsContracting := [1]
  rhsContracting := [0]
  lhsNonContracting := [0]
  rhsNonContracting := [1]
  lhsBatch := []
  rhsBatch := []
  wf := dot_S131072x768_S768x256_S131072x256_1_0_0_1_n_n_wf
def gather_S16384x256_S131072x1_S131072x256_1_0_n_n_0_1_1256 : GatherDims S16384x256 S131072x1 S131072x256 where
  offsetDims := [1]
  collapsedSliceDims := [0]
  operandBatchingDims := []
  startIndicesBatchingDims := []
  startIndexMap := [0]
  indexVectorDim := 1
  sliceSizes := ![1, 256]
  wf := gather_S16384x256_S131072x1_S131072x256_1_0_n_n_0_1_1256_wf

class Facts : Prop extends Facts₀ where

variable [Facts]
-- ==== Proof.KRun.lean ====
/-
  The idealized kernel's run with its result named.

  @main is six segments: three stretches of host operations and three tiled regions. Along the run the contents of
  every unscoped buffer at each segment boundary are a fold from the launch memory: a host stretch applies its
  operations, a region leaves each of its arrays at what its write-backs leave and every other buffer as it found it.
  The run ends with every unscoped buffer at the last boundary's contents; read at the result buffer this names the
  program's result, and read at an argument it walks back to the launch memory.
-/
import proofs.«116603_j10986526343793_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents (region 2's output array as its write-backs leave it) and the arguments end as launched. -/
theorem run_result : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.KWeights.lean ====
import proofs.«116603_j10986526343793_2_alg».proof.KernelIdeal
import Idealize.ShloMosaic.Lib.Pipeline.Value
import Idealize.ShloMosaic.Lib.ValueIdx

/-!
# The kernel's re-laid weight matrices, read at an entry

The host code cuts the two weight arguments into 256-column blocks, transposes each block
and joins two transposed blocks side by side; it also cuts the projected array into its two
256-column halves.  Each of these arrays, read at an entry, is one entry of an argument:
entry (k, q) of the transpose of the block starting at column c of W is W[q, c + k], and
entry (k, c) of two blocks joined along the columns is an entry of the left block when
c < 256 and of the right block, at column c - 256, otherwise.
-/

noncomputable section

namespace Cert.KernelIdeal.Weights

open Cert.KernelIdeal Idealize.ShloMosaic Idealize.ShloMosaic.ValueIdx

variable [Facts₀]
open Facts₀

/-- The transpose of columns 0 … 255 of the first weight matrix. -/
def wt0 (x5 : (⟨S256x768, .f32⟩ : BufTy).Contents (Elt Ideal)) : (⟨S256x256, .f32⟩ : BufTy).Contents (Elt Ideal) :=
  transpose S256x256 [1, 0] (extractStridedSlice S256x256 ![0, 0] x5 slices_S256x768_S256x256_0_0) transposes_S256x256_S256x256_1_0

/-- The transpose of columns 256 … 511 of the first weight matrix. -/
def wt1 (x5 : (⟨S256x768, .f32⟩ : BufTy).Contents (Elt Ideal)) : (⟨S256x256, .f32⟩ : BufTy).Contents (Elt Ideal) :=
  transpose S256x256 [1, 0] (extractStridedSlice S256x256 ![0, 256] x5 slices_S256x768_S256x256_0_256) transposes_S256x256_S256x256_1_0

/-- The transpose of columns 512 … 767 of the first weight matrix. -/
def wt2 (x5 : (⟨S256x768, .f32⟩ : BufTy).Contents (Elt Ideal)) : (⟨S256x256, .f32⟩ : BufTy).Contents (Elt Ideal) :=
  transpose S256x256 [1, 0] (extractStridedSlice S256x256 ![0, 512] x5 slices_S256x768_S256x256_0_512) transposes_S256x256_S256x256_1_0

/-- The transpose of columns 0 … 255 of the second weight matrix. -/
def wi0 (x6 : (⟨S256x512, .f32⟩ : BufTy).Contents (Elt Ideal)) : (⟨S256x256, .f32⟩ : BufTy).Contents (Elt Ideal) :=
  transpose S256x256 [1, 0] (extractStridedSlice S256x256 ![0, 0] x6 slices_S256x512_S256x256_0_0) transposes_S256x256_S256x256_1_0

/-- The transpose of columns 256 … 511 of the second weight matrix. -/
def wi1 (x6 : (⟨S256x512, .f32⟩ : BufTy).Contents (Elt Ideal)) : (⟨S256x256, .f32⟩ : BufTy).Contents (Elt Ideal) :=
  transpose S256x256 [1, 0] (extractStridedSlice S256x256 ![0, 256] x6 slices_S256x512_S256x256_0_256) transposes_S256x256_S256x256_1_0

/-- The message weights: the second transposed block of the first matrix beside the first
transposed block of the second matrix. -/
def wmsg (x5 : (⟨S256x768, .f32⟩ : BufTy).Contents (Elt Ideal)) (x6 : (⟨S256x512, .f32⟩ : BufTy).Contents (Elt Ideal)) :
    (⟨S256x512, .f32⟩ : BufTy).Contents (Elt Ideal) :=
  concatenate S256x512 1 [⟨S256x256, wt1 x5⟩, ⟨S256x256, wi0 x6⟩] concatenates_S256x256_S256x256_S256x512_d1

/-- The domain weights: the third transposed block of the first matrix beside the second
transposed block of the second matrix. -/
def wdom (x5 : (⟨S256x768, .f32⟩ : BufTy).Contents (Elt Ideal)) (x6 : (⟨S256x512, .f32⟩ : BufTy).Contents (Elt Ideal)) :
    (⟨S256x512, .f32⟩ : BufTy).Contents (Elt Ideal) :=
  concatenate S256x512 1 [⟨S256x256, wt2 x5⟩, ⟨S256x256, wi1 x6⟩] concatenates_S256x256_S256x256_S256x512_d1

/-- Columns 0 … 255 of the projected array. -/
def uHalf (uv : (⟨S65536x512, .f32⟩ : BufTy).Contents (Elt Ideal)) : (⟨S65536x256, .f32⟩ : BufTy).Contents (Elt Ideal) :=
  extractStridedSlice S65536x256 ![0, 0] uv slices_S65536x512_S65536x256_0_0

/-- Columns 256 … 511 of the projected array. -/
def vHalf (uv : (⟨S65536x512, .f32⟩ : BufTy).Contents (Elt Ideal)) : (⟨S65536x256, .f32⟩ : BufTy).Contents (Elt Ideal) :=
  extractStridedSlice S65536x256 ![0, 256] uv slices_S65536x512_S65536x256_0_256

/-- Entry (k, q) of the transpose of W[:, 0:256] is W[q, k]. -/
theorem wt0_apply (x5 : (⟨S256x768, .f32⟩ : BufTy).Contents (Elt Ideal)) (k q : Fin 256) :
    wt0 x5 (ix2 k q) = x5 (ix2 q (⟨k.val, by omega⟩ : Fin 768)) := by
  unfold wt0
  refine (transpose_apply [1, 0] (extractStridedSlice S256x256 ![0, 0] x5 slices_S256x768_S256x256_0_0)
    transposes_S256x256_S256x256_1_0 (ix2 k q) (ix2 q k) (fun b => match b with
      | ⟨0, _⟩ => rfl
      | ⟨1, _⟩ => rfl)).trans ?_
  exact extractStridedSlice_apply ![0, 0] x5 slices_S256x768_S256x256_0_0 (ix2 q k)
    (ix2 q (⟨k.val, by omega⟩ : Fin 768)) (fun a => match a with
      | ⟨0, _⟩ => by show q.val = 0 + q.val; omega
      | ⟨1, _⟩ => by show k.val = 0 + k.val; omega)

/-- Entry (k, q) of the transpose of W[:, 256:512] is W[q, 256 + k]. -/
theorem wt1_apply (x5 : (⟨S256x768, .f32⟩ : BufTy).Contents (Elt Ideal)) (k q : Fin 256) :
    wt1 x5 (ix2 k q) = x5 (ix2 q (⟨256 + k.val, by omega⟩ : Fin 768)) := by
  unfold wt1
  refine (transpose_apply [1, 0] (extractStridedSlice S256x256 ![0, 256] x5 slices_S256x768_S256x256_0_256)
    transposes_S256x256_S256x256_1_0 (ix2 k q) (ix2 q k) (fun b => match b with
      | ⟨0, _⟩ => rfl
      | ⟨1, _⟩ => rfl)).trans ?_
  exact extractStridedSlice_apply ![0, 256] x5 slices_S256x768_S256x256_0_256 (ix2 q k)
    (ix2 q (⟨256 + k.val, by omega⟩ : Fin 768)) (fun a => match a with
      | ⟨0, _⟩ => by show q.val = 0 + q.val; omega
      | ⟨1, _⟩ => by show 256 + k.val = 256 + k.val; omega)

/-- Entry (k, q) of the transpose of W[:, 512:768] is W[q, 512 + k]. -/
theorem wt2_apply (x5 : (⟨S256x768, .f32⟩ : BufTy).Contents (Elt Ideal)) (k q : Fin 256) :
    wt2 x5 (ix2 k q) = x5 (ix2 q (⟨512 + k.val, by omega⟩ : Fin 768)) := by
  unfold wt2
  refine (transpose_apply [1, 0] (extractStridedSlice S256x256 ![0, 512] x5 slices_S256x768_S256x256_0_512)
    transposes_S256x256_S256x256_1_0 (ix2 k q) (ix2 q k) (fun b => match b with
      | ⟨0, _⟩ => rfl
      | ⟨1, _⟩ => rfl)).trans ?_
  exact extractStridedSlice_apply ![0, 512] x5 slices_S256x768_S256x256_0_512 (ix2 q k)
    (ix2 q (⟨512 + k.val, by omega⟩ : Fin 768)) (fun a => match a with
      | ⟨0, _⟩ => by show q.val = 0 + q.val; omega
      | ⟨1, _⟩ => by show 512 + k.val = 512 + k.val; omega)

/-- Entry (k, q) of the transpose of V[:, 0:256] is V[q, k]. -/
theorem wi0_apply (x6 : (⟨S256x512, .f32⟩ : BufTy).Contents (Elt Ideal)) (k q : Fin 256) :
    wi0 x6 (ix2 k q) = x6 (ix2 q (⟨k.val, by omega⟩ : Fin 512)) := by
  unfold wi0
  refine (transpose_apply [1, 0] (extractStridedSlice S256x256 ![0, 0] x6 slices_S256x512_S256x256_0_0)
    transposes_S256x256_S256x256_1_0 (ix2 k q) (ix2 q k) (fun b => match b with
      | ⟨0, _⟩ => rfl
      | ⟨1, _⟩ => rfl)).trans ?_
  exact extractStridedSlice_apply ![0, 0] x6 slices_S256x512_S256x256_0_0 (ix2 q k)
    (ix2 q (⟨k.val, by omega⟩ : Fin 512)) (fun a => match a with
      | ⟨0, _⟩ => by show q.val = 0 + q.val; omega
      | ⟨1, _⟩ => by show k.val = 0 + k.val; omega)

/-- Entry (k, q) of the transpose of V[:, 256:512] is V[q, 256 + k]. -/
theorem wi1_apply (x6 : (⟨S256x512, .f32⟩ : BufTy).Contents (Elt Ideal)) (k q : Fin 256) :
    wi1 x6 (ix2 k q) = x6 (ix2 q (⟨256 + k.val, by omega⟩ : Fin 512)) := by
  unfold wi1
  refine (transpose_apply [1, 0] (extractStridedSlice S256x256 ![0, 256] x6 slices_S256x512_S256x256_0_256)
    transposes_S256x256_S256x256_1_0 (ix2 k q) (ix2 q k) (fun b => match b with
      | ⟨0, _⟩ => rfl
      | ⟨1, _⟩ => rfl)).trans ?_
  exact extractStridedSlice_apply ![0, 256] x6 slices_S256x512_S256x256_0_256 (ix2 q k)
    (ix2 q (⟨256 + k.val, by omega⟩ : Fin 512)) (fun a => match a with
      | ⟨0, _⟩ => by show q.val = 0 + q.val; omega
      | ⟨1, _⟩ => by show 256 + k.val = 256 + k.val; omega)

/-- Two 256-column blocks joined along the columns, read at a column below 256: the left block. -/
theorem pair_left (a b : (⟨S256x256, .f32⟩ : BufTy).Contents (Elt Ideal)) (k q : Fin 256) :
    concatenate S256x512 1 [⟨S256x256, a⟩, ⟨S256x256, b⟩] concatenates_S256x256_S256x256_S256x512_d1
      (ix2 k (⟨q.val, by omega⟩ : Fin 512)) = a (ix2 k q) :=
  concatenate_pair_apply_left 1 a b concatenates_S256x256_S256x256_S256x512_d1
    (ix2 k (⟨q.val, by omega⟩ : Fin 512)) rfl (ix2 k q) (fun c => match c with
      | ⟨0, _⟩ => rfl
      | ⟨1, _⟩ => rfl)

/-- Two 256-column blocks joined along the columns, read at column 256 + q: the right block at
column q. -/
theorem pair_right (a b : (⟨S256x256, .f32⟩ : BufTy).Contents (Elt Ideal)) (k q : Fin 256) :
    concatenate S256x512 1 [⟨S256x256, a⟩, ⟨S256x256, b⟩] concatenates_S256x256_S256x256_S256x512_d1
      (ix2 k (⟨256 + q.val, by omega⟩ : Fin 512)) = b (ix2 k q) :=
  concatenate_pair_apply_right 1 a b concatenates_S256x256_S256x256_S256x512_d1
    (ix2 k (⟨256 + q.val, by omega⟩ : Fin 512)) rfl rfl (ix2 k q) (fun c => match c with
      | ⟨0, _⟩ => fun _ => rfl
      | ⟨1, _⟩ => fun h => absurd (Fin.ext rfl) h)
    (by show q.val + 256 = 256 + q.val; omega)

/-- The message weights at (k, q), q < 256: W[q, 256 + k]. -/
theorem wmsg_left (x5 : (⟨S256x768, .f32⟩ : BufTy).Contents (Elt Ideal)) (x6 : (⟨S256x512, .f32⟩ : BufTy).Contents (Elt Ideal))
    (k q : Fin 256) :
    wmsg x5 x6 (ix2 k (⟨q.val, by omega⟩ : Fin 512)) = x5 (ix2 q (⟨256 + k.val, by omega⟩ : Fin 768)) := by
  unfold wmsg
  rw [pair_left, wt1_apply]

/-- The message weights at (k, 256 + q): V[q, k]. -/
theorem wmsg_right (x5 : (⟨S256x768, .f32⟩ : BufTy).Contents (Elt Ideal)) (x6 : (⟨S256x512, .f32⟩ : BufTy).Contents (Elt Ideal))
    (k q : Fin 256) :
    wmsg x5 x6 (ix2 k (⟨256 + q.val, by omega⟩ : Fin 512)) = x6 (ix2 q (⟨k.val, by omega⟩ : Fin 512)) := by
  unfold wmsg
  rw [pair_right, wi0_apply]

/-- The domain weights at (k, q), q < 256: W[q, 512 + k]. -/
theorem wdom_left (x5 : (⟨S256x768, .f32⟩ : BufTy).Contents (Elt Ideal)) (x6 : (⟨S256x512, .f32⟩ : BufTy).Contents (Elt Ideal))
    (k q : Fin 256) :
    wdom x5 x6 (ix2 k (⟨q.val, by omega⟩ : Fin 512)) = x5 (ix2 q (⟨512 + k.val, by omega⟩ : Fin 768)) := by
  unfold wdom
  rw [pair_left, wt2_apply]

/-- The domain weights at (k, 256 + q): V[q, 256 + k]. -/
theorem wdom_right (x5 : (⟨S256x768, .f32⟩ : BufTy).Contents (Elt Ideal)) (x6 : (⟨S256x512, .f32⟩ : BufTy).Contents (Elt Ideal))
    (k q : Fin 256) :
    wdom x5 x6 (ix2 k (⟨256 + q.val, by omega⟩ : Fin 512)) = x6 (ix2 q (⟨256 + k.val, by omega⟩ : Fin 512)) := by
  unfold wdom
  rw [pair_right, wi1_apply]

/-- The left half of the projected array at (m, q) is the array at (m, q). -/
theorem uHalf_apply (uv : (⟨S65536x512, .f32⟩ : BufTy).Contents (Elt Ideal)) (m : Fin 65536) (q : Fin 256) :
    uHalf uv (ix2 m q) = uv (ix2 m (⟨q.val, by omega⟩ : Fin 512)) := by
  unfold uHalf
  exact extractStridedSlice_apply ![0, 0] uv slices_S65536x512_S65536x256_0_0 (ix2 m q)
    (ix2 m (⟨q.val, by omega⟩ : Fin 512)) (fun a => match a with
      | ⟨0, _⟩ => by show m.val = 0 + m.val; omega
      | ⟨1, _⟩ => by show q.val = 0 + q.val; omega)

/-- The right half of the projected array at (m, q) is the array at (m, 256 + q). -/
theorem vHalf_apply (uv : (⟨S65536x512, .f32⟩ : BufTy).Contents (Elt Ideal)) (m : Fin 65536) (q : Fin 256) :
    vHalf uv (ix2 m q) = uv (ix2 m (⟨256 + q.val, by omega⟩ : Fin 512)) := by
  unfold vHalf
  exact extractStridedSlice_apply ![0, 256] uv slices_S65536x512_S65536x256_0_256 (ix2 m q)
    (ix2 m (⟨256 + q.val, by omega⟩ : Fin 512)) (fun a => match a with
      | ⟨0, _⟩ => by show m.val = 0 + m.val; omega
      | ⟨1, _⟩ => by show 256 + q.val = 256 + q.val; omega)

end Cert.KernelIdeal.Weights

end
-- ==== Proof.KHost1.lean ====
/-
  The first stretch of host operations, read back.

  Before the first tiled region the host computes, from the arguments alone, the gathers and segment-sums that both
  programs share — the messages, the domain means and their gather per message, the per-atom sum of gathered rows —
  and re-lays the weight matrices. Each of these buffers, after the stretch, holds the same composed function of the
  argument arrays that the reference computes for its own copy of the value; the two programs spell these operations
  identically, so each equation holds by unfolding.
-/
import proofs.«116603_j10986526343793_2_alg».proof.Proof.Gen.KernelIdeal.Frame
import proofs.«116603_j10986526343793_2_alg».proof.Proof.Gen.ReferenceIdeal.Read
import proofs.«116603_j10986526343793_2_alg».proof.Proof.KWeights
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first stretch the buffer holds the messages: the gathered source rows summed per intersection. -/
theorem first_v17 (c : Dev nD) : V1 (F := Ideal) m ρ c main_v17 =
    Cert.ReferenceIdeal.Read.val_main_v13 (F := Ideal) (m ((c : Thread nD τ).loc main_arg0)) (m ((c : Thread nD τ).loc main_arg2)) (m ((c : Thread nD τ).loc main_arg3)) := by
  show StableHlo.after hostOps0 (W0 m ρ c) (Proc.devRef .tc main_v17) = _
  after_results_simp
  rfl

/-- After the first stretch the buffer holds the domain messages: the domain means gathered per message. -/
theorem first_v35 (c : Dev nD) : V1 (F := Ideal) m ρ c main_v35 =
    Cert.ReferenceIdeal.Read.val_main_v33 (F := Ideal) (m ((c : Thread nD τ).loc main_arg0)) (m ((c : Thread nD τ).loc main_arg1)) (m ((c : Thread nD τ).loc main_arg4)) := by
  show StableHlo.after hostOps0 (W0 m ρ c) (Proc.devRef .tc main_v35) = _
  after_results_simp
  rfl

/-- After the first stretch the buffer holds the domain means. -/
theorem first_v28 (c : Dev nD) : V1 (F := Ideal) m ρ c main_v28 =
    Cert.ReferenceIdeal.Read.val_main_v24 (F := Ideal) (m ((c : Thread nD τ).loc main_arg0)) (m ((c : Thread nD τ).loc main_arg1)) := by
  show StableHlo.after hostOps0 (W0 m ρ c) (Proc.devRef .tc main_v28) = _
  after_results_simp
  rfl

/-- After the first stretch the buffer holds the gathered source rows summed per target atom. -/
theorem first_v38 (c : Dev nD) : V1 (F := Ideal) m ρ c main_v38 =
    Cert.ReferenceIdeal.Read.val_main_v36 (F := Ideal) (m ((c : Thread nD τ).loc main_arg0)) (m ((c : Thread nD τ).loc main_arg2)) := by
  show StableHlo.after hostOps0 (W0 m ρ c) (Proc.devRef .tc main_v38) = _
  after_results_simp
  rfl

/-- After the first stretch the buffer holds the invariant-map weight transposed. -/
theorem first_v51 (c : Dev nD) : V1 (F := Ideal) m ρ c main_v51 =
    Cert.ReferenceIdeal.Read.val_main_v69 (F := Ideal) (m ((c : Thread nD τ).loc main_arg7)) := by
  show StableHlo.after hostOps0 (W0 m ρ c) (Proc.devRef .tc main_v51) = _
  after_results_simp
  rfl

/-- After the first stretch the buffer holds the identity-map weight transposed. -/
theorem first_v52 (c : Dev nD) : V1 (F := Ideal) m ρ c main_v52 =
    Cert.ReferenceIdeal.Read.val_main_v74 (F := Ideal) (m ((c : Thread nD τ).loc main_arg8)) := by
  show StableHlo.after hostOps0 (W0 m ρ c) (Proc.devRef .tc main_v52) = _
  after_results_simp
  rfl

/-- After the first stretch the buffer holds the target atom of each edge. -/
theorem first_v3 (c : Dev nD) : V1 (F := Ideal) m ρ c main_v3 =
    Cert.ReferenceIdeal.Read.val_main_v3 (F := Ideal) (m ((c : Thread nD τ).loc main_arg2)) := by
  show StableHlo.after hostOps0 (W0 m ρ c) (Proc.devRef .tc main_v3) = _
  after_results_simp
  rfl

/-- After the first stretch the buffer holds the target domain of each message. -/
theorem first_v7 (c : Dev nD) : V1 (F := Ideal) m ρ c main_v7 =
    Cert.ReferenceIdeal.Read.val_main_v59 (F := Ideal) (m ((c : Thread nD τ).loc main_arg4)) := by
  show StableHlo.after hostOps0 (W0 m ρ c) (Proc.devRef .tc main_v7) = _
  after_results_simp
  rfl

/-- The first stretch writes no argument. -/
theorem first_arg0 (c : Dev nD) : V1 (F := Ideal) m ρ c main_arg0 = (m ((c : Thread nD τ).loc main_arg0)) := by
  show StableHlo.after hostOps0 (W0 m ρ c) (Proc.devRef .tc main_arg0) = _
  after_results_simp

/-- The first stretch writes no argument. -/
theorem first_arg1 (c : Dev nD) : V1 (F := Ideal) m ρ c main_arg1 = (m ((c : Thread nD τ).loc main_arg1)) := by
  show StableHlo.after hostOps0 (W0 m ρ c) (Proc.devRef .tc main_arg1) = _
  after_results_simp

/-- The first stretch writes no argument. -/
theorem first_arg3 (c : Dev nD) : V1 (F := Ideal) m ρ c main_arg3 = (m ((c : Thread nD τ).loc main_arg3)) := by
  show StableHlo.after hostOps0 (W0 m ρ c) (Proc.devRef .tc main_arg3) = _
  after_results_simp

/-- After the first stretch the buffer holds the messages' weight: the middle block of the transfer weight beside the first block of the invariant weight, both transposed. -/
theorem first_v49 (c : Dev nD) : V1 (F := Ideal) m ρ c main_v49 =
    Cert.KernelIdeal.Weights.wmsg (m ((c : Thread nD τ).loc main_arg5)) (m ((c : Thread nD τ).loc main_arg6)) := by
  show StableHlo.after hostOps0 (W0 m ρ c) (Proc.devRef .tc main_v49) = _
  after_results_simp
  rfl

/-- After the first stretch the buffer holds the domain messages' weight: the last block of the transfer weight beside the second block of the invariant weight, both transposed. -/
theorem first_v50 (c : Dev nD) : V1 (F := Ideal) m ρ c main_v50 =
    Cert.KernelIdeal.Weights.wdom (m ((c : Thread nD τ).loc main_arg5)) (m ((c : Thread nD τ).loc main_arg6)) := by
  show StableHlo.after hostOps0 (W0 m ρ c) (Proc.devRef .tc main_v50) = _
  after_results_simp
  rfl

/-- After the first stretch the buffer holds the first block of the transfer weight, transposed. -/
theorem first_v40 (c : Dev nD) : V1 (F := Ideal) m ρ c main_v40 =
    Cert.KernelIdeal.Weights.wt0 (m ((c : Thread nD τ).loc main_arg5)) := by
  show StableHlo.after hostOps0 (W0 m ρ c) (Proc.devRef .tc main_v40) = _
  after_results_simp
  rfl

end Cert.KernelIdeal.HostValue

end
-- ==== Proof.Spec.lean ====
/-
  The three dense steps of the transfer layer, entry by entry, over the extended reals.

  Each of the three tiled computations is a sum of plain matrix products, possibly plus an array added entrywise:
    * `proj A B WA WB`      = A·WA + B·WB                 (two row arrays projected by two weight matrices and summed),
    * `affine X G W`        = X·W + G                     (one product plus an addend),
    * `combine X Y G WX WY` = (X·WX + Y·WY) + G           (two products plus an addend).
  An entry (p, q) of any of them reads row p of the row arrays and column q of the weights (and entry (p, q) of the
  addend), so a row block of the result is the same function of the row blocks of the operands.
-/
import Idealize.ShloMosaic.PureOps.Ideal
import Idealize.ShloMosaic.Lib.ValueIdx

noncomputable section

open scoped BigOperators

namespace Cert.Transfer

open Idealize.ShloMosaic Idealize.ShloMosaic.ValueIdx

/-- An `a × b` array of extended reals. -/
abbrev Mat (a b : Nat) : Type := (⟨2, ![a, b]⟩ : Shape).Idx → EReal

/-- Entry (p, q) of the matrix product A·W: the sum over k of A[p, k] · W[k, q]. -/
def dotAt {n K N : Nat} (A : Mat n K) (W : Mat K N) (p : Fin n) (q : Fin N) : EReal :=
  ∑ k : Fin K, A (ix2 p k) * W (ix2 k q)

/-- Entry (p, q) of A·WA + B·WB. -/
def projAt {n K N : Nat} (A B : Mat n K) (WA WB : Mat K N) (p : Fin n) (q : Fin N) : EReal :=
  dotAt A WA p q + dotAt B WB p q

/-- A·WA + B·WB. -/
def proj {n K N : Nat} (A B : Mat n K) (WA WB : Mat K N) : Mat n N :=
  fun i => projAt A B WA WB (i 0) (i 1)

theorem proj_apply {n K N : Nat} (A B : Mat n K) (WA WB : Mat K N) (p : Fin n) (q : Fin N) :
    proj A B WA WB (ix2 p q) = projAt A B WA WB p q := rfl

/-- Entry (p, q) of X·W + G. -/
def affineAt {n K N : Nat} (X : Mat n K) (G : Mat n N) (W : Mat K N) (p : Fin n) (q : Fin N) : EReal :=
  dotAt X W p q + G (ix2 p q)

/-- X·W + G. -/
def affine {n K N : Nat} (X : Mat n K) (G : Mat n N) (W : Mat K N) : Mat n N :=
  fun i => affineAt X G W (i 0) (i 1)

theorem affine_apply {n K N : Nat} (X : Mat n K) (G : Mat n N) (W : Mat K N) (p : Fin n) (q : Fin N) :
    affine X G W (ix2 p q) = affineAt X G W p q := rfl

/-- Entry (p, q) of (X·WX + Y·WY) + G. -/
def combineAt {n K N : Nat} (X Y : Mat n K) (G : Mat n N) (WX WY : Mat K N) (p : Fin n) (q : Fin N) : EReal :=
  (dotAt X WX p q + dotAt Y WY p q) + G (ix2 p q)

/-- (X·WX + Y·WY) + G. -/
def combine {n K N : Nat} (X Y : Mat n K) (G : Mat n N) (WX WY : Mat K N) : Mat n N :=
  fun i => combineAt X Y G WX WY (i 0) (i 1)

theorem combine_apply {n K N : Nat} (X Y : Mat n K) (G : Mat n N) (WX WY : Mat K N) (p : Fin n) (q : Fin N) :
    combine X Y G WX WY (ix2 p q) = combineAt X Y G WX WY p q := rfl

end Cert.Transfer

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.Rows.lean ====
/-
  Row gathers and row segment-sums of the transfer layer, read at an entry.

  Four index arrays drive every irregular step: each edge's message number and target atom, each message's target
  domain, each atom's domain. A row gather reads, at (e, k), row "the index of e, clamped into range" of its operand; a
  row segment-sum into a zero array holds, at (n, k), zero plus the sum over the update rows e whose row number is n
  of entry (e, k) of the updates — a row number outside the range matches no n and that update row is dropped.
-/
import proofs.«116603_j10986526343793_2_alg».proof.Proof.Gen.ReferenceIdeal.Read
import proofs.«116603_j10986526343793_2_alg».proof.Proof.LibScatterRows
import proofs.«116603_j10986526343793_2_alg».proof.Proof.LibSegments
import Idealize.ShloMosaic.PureOps.Ideal.Laws

noncomputable section

open scoped BigOperators

namespace Cert.Transfer.Rows

open Cert.ReferenceIdeal Cert.ReferenceIdeal.Read Idealize.ShloMosaic Idealize.ShloMosaic.ValueIdx

/-- The message an edge belongs to: its (sign-wrapped) intersection number, clamped into the messages' range. -/
def msgOf (x3 : (⟨S262144, .i32⟩ : BufTy).Contents (Elt Ideal)) (e : Fin 262144) : Fin 65536 :=
  ⟨min ((val_main_v42 (F := Ideal) x3) (ix2 e (0 : Fin 1))).toInt.toNat (65536 - 1), by omega⟩

/-- The domain an atom belongs to: its (sign-wrapped) domain number, clamped into the domains' range. -/
def domOf (x1 : (⟨S131072, .i32⟩ : BufTy).Contents (Elt Ideal)) (n : Fin 131072) : Fin 16384 :=
  ⟨min ((val_main_v84 (F := Ideal) x1) (ix2 n (0 : Fin 1))).toInt.toNat (16384 - 1), by omega⟩

/-- Edge e is aimed at atom n. -/
def aimsAt (x2 : (⟨S2x262144, .i32⟩ : BufTy).Contents (Elt Ideal)) (n : Fin 131072) (e : Fin 262144) : Prop :=
  ((val_main_v45 (F := Ideal) x2) (ix2 e (0 : Fin 1))).toInt = (n.val : ℤ)

/-- Message j is aimed at domain d. -/
def sentTo (x4 : (⟨S2x65536, .i32⟩ : BufTy).Contents (Elt Ideal)) (d : Fin 16384) (j : Fin 65536) : Prop :=
  ((val_main_v61 (F := Ideal) x4) (ix2 j (0 : Fin 1))).toInt = (d.val : ℤ)

instance (x2 : (⟨S2x262144, .i32⟩ : BufTy).Contents (Elt Ideal)) (n : Fin 131072) : DecidablePred (aimsAt x2 n) := fun _ => by unfold aimsAt; infer_instance
instance (x4 : (⟨S2x65536, .i32⟩ : BufTy).Contents (Elt Ideal)) (d : Fin 16384) : DecidablePred (sentTo x4 d) := fun _ => by unfold sentTo; infer_instance

/-- The per-atom accumulator starts at zero. -/
theorem zero_atoms (i : S131072x256.Idx) : val_main_v44 (F := Ideal) i = 0 := by
  rw [val_main_v44_apply, val_main_cst_10_apply, Ideal.ofBits_def, Ideal.ofBits_zero_f32]

/-- The per-domain accumulator starts at zero. -/
theorem zero_doms (i : S16384x256.Idx) : val_main_v60 (F := Ideal) i = 0 := by
  rw [val_main_v60_apply, val_main_cst_14_apply, Ideal.ofBits_def, Ideal.ofBits_zero_f32]

/-- A row segment-sum over the edges' target atoms, at (n, k). -/
theorem sum_by_atom (x2 : (⟨S2x262144, .i32⟩ : BufTy).Contents (Elt Ideal)) (u : (⟨S262144x256, .f32⟩ : BufTy).Contents (Elt Ideal)) (n : Fin 131072) (k : Fin 256) :
    Host.scatterAdd (F := Ideal) (φ := .f32) scatter_S131072x256_S262144x1_S262144x256_1_0_0_1 (val_main_v44 (F := Ideal)) (val_main_v45 (F := Ideal) x2) u (ix2 n k)
      = ((0 + ∑ e : Fin 262144, if aimsAt x2 n e then (u (ix2 e k) : EReal) else 0 : EReal)) := by
  rw [ScatterRows.scatterAdd_rows2_apply_of_dims _ rfl rfl rfl rfl, zero_atoms]
  rfl

/-- A row segment-sum over the messages' target domains, at (d, k). -/
theorem sum_by_dom (x4 : (⟨S2x65536, .i32⟩ : BufTy).Contents (Elt Ideal)) (u : (⟨S65536x256, .f32⟩ : BufTy).Contents (Elt Ideal)) (d : Fin 16384) (k : Fin 256) :
    Host.scatterAdd (F := Ideal) (φ := .f32) scatter_S16384x256_S65536x1_S65536x256_1_0_0_1 (val_main_v60 (F := Ideal)) (val_main_v61 (F := Ideal) x4) u (ix2 d k)
      = ((0 + ∑ j : Fin 65536, if sentTo x4 d j then (u (ix2 j k) : EReal) else 0 : EReal)) := by
  rw [ScatterRows.scatterAdd_rows2_apply_of_dims _ rfl rfl rfl rfl, zero_doms]
  rfl

/-- A gather of message rows along the edges, at (e, k). -/
theorem rows_by_msg (x3 : (⟨S262144, .i32⟩ : BufTy).Contents (Elt Ideal)) (a : (⟨S65536x256, .f32⟩ : BufTy).Contents (Elt Ideal)) (e : Fin 262144) (k : Fin 256) :
    Host.gather gather_S65536x256_S262144x1_S262144x256_1_0_n_n_0_1_1256 a (val_main_v42 (F := Ideal) x3) (ix2 e k) = a (ix2 (msgOf x3 e) k) := by
  rw [Segments.gather_rows_apply_of_dims (by decide) _ rfl rfl rfl rfl rfl rfl rfl]
  rfl

/-- A gather of domain rows along the atoms, at (n, k). -/
theorem rows_by_dom (x1 : (⟨S131072, .i32⟩ : BufTy).Contents (Elt Ideal)) (a : (⟨S16384x256, .f32⟩ : BufTy).Contents (Elt Ideal)) (n : Fin 131072) (k : Fin 256) :
    Host.gather gather_S16384x256_S131072x1_S131072x256_1_0_n_n_0_1_1256 a (val_main_v84 (F := Ideal) x1) (ix2 n k) = a (ix2 (domOf x1 n) k) := by
  rw [Segments.gather_rows_apply_of_dims (by decide) _ rfl rfl rfl rfl rfl rfl rfl]
  rfl

end Cert.Transfer.Rows

end
-- ==== Proof.KValue.lean ====
/-
  The idealized kernel's result as one function of the nine argument arrays.

  With msg (the gathered source rows summed per intersection), dom (the domain means gathered per message), xinv (the
  domain means) and y0 (the gathered source rows summed per target atom) as both programs compute them:
    uv    = msg·[Wt1 | Wi0] + dom·[Wt2 | Wi1]                      (one projection of the messages, 512 columns),
    y12   = the left half of uv gathered along the edges and summed per target atom,
    yinvx = the right half of uv summed per target domain,
    invm  = xinv·W_lin_invᵀ + yinvx,
    gg    = y12 + invm gathered along the atoms' domains,
    out   = (x·W_lin_idᵀ + y0·Wt0) + gg.
-/
import proofs.«116603_j10986526343793_2_alg».proof.Proof.Gen.ReferenceIdeal.Read
import proofs.«116603_j10986526343793_2_alg».proof.Proof.Spec
import proofs.«116603_j10986526343793_2_alg».proof.Proof.KWeights
import proofs.«116603_j10986526343793_2_alg».proof.Proof.Rows

noncomputable section

namespace Cert.Transfer.KValue

open Cert.Transfer Cert.ReferenceIdeal.Read Idealize.ShloMosaic Idealize.ShloMosaic.ValueIdx
open Cert.KernelIdeal.Weights

variable [Cert.KernelIdeal.Facts₀]

variable (x0 : (⟨Cert.ReferenceIdeal.S131072x256, .f32⟩ : BufTy).Contents (Elt Ideal)) (x1 : (⟨Cert.ReferenceIdeal.S131072, .i32⟩ : BufTy).Contents (Elt Ideal)) (x2 : (⟨Cert.ReferenceIdeal.S2x262144, .i32⟩ : BufTy).Contents (Elt Ideal)) (x3 : (⟨Cert.ReferenceIdeal.S262144, .i32⟩ : BufTy).Contents (Elt Ideal)) (x4 : (⟨Cert.ReferenceIdeal.S2x65536, .i32⟩ : BufTy).Contents (Elt Ideal)) (x5 : (⟨Cert.ReferenceIdeal.S256x768, .f32⟩ : BufTy).Contents (Elt Ideal)) (x6 : (⟨Cert.ReferenceIdeal.S256x512, .f32⟩ : BufTy).Contents (Elt Ideal)) (x7 x8 : (⟨Cert.ReferenceIdeal.S256x256, .f32⟩ : BufTy).Contents (Elt Ideal))

/-- The messages and the domain messages projected once: msg·[Wt1 | Wi0] + dom·[Wt2 | Wi1]. -/
def uv : Mat 65536 512 :=
  proj (val_main_v13 (F := Ideal) x0 x2 x3) (val_main_v33 (F := Ideal) x0 x1 x4) (wmsg x5 x6) (wdom x5 x6)

/-- The left half of the projection, gathered along the edges and summed per target atom. -/
def y12 : (⟨Cert.ReferenceIdeal.S131072x256, .f32⟩ : BufTy).Contents (Elt Ideal) :=
  Host.scatterAdd (F := Ideal) (φ := .f32) Cert.ReferenceIdeal.scatter_S131072x256_S262144x1_S262144x256_1_0_0_1 (val_main_v44 (F := Ideal)) (val_main_v45 (F := Ideal) x2)
    (Host.gather Cert.ReferenceIdeal.gather_S65536x256_S262144x1_S262144x256_1_0_n_n_0_1_1256 (uHalf (uv x0 x1 x2 x3 x4 x5 x6)) (val_main_v42 (F := Ideal) x3))

/-- The right half of the projection, summed per target domain. -/
def yinvx : (⟨Cert.ReferenceIdeal.S16384x256, .f32⟩ : BufTy).Contents (Elt Ideal) :=
  Host.scatterAdd (F := Ideal) (φ := .f32) Cert.ReferenceIdeal.scatter_S16384x256_S65536x1_S65536x256_1_0_0_1 (val_main_v60 (F := Ideal)) (val_main_v61 (F := Ideal) x4)
    (vHalf (uv x0 x1 x2 x3 x4 x5 x6))

/-- The invariant maps: xinv·W_lin_invᵀ + yinvx. -/
def invm : Mat 16384 256 :=
  affine (val_main_v24 (F := Ideal) x0 x1) (yinvx x0 x1 x2 x3 x4 x5 x6) (val_main_v69 (F := Ideal) x7)

/-- What is added to the two dense products: y12 plus each atom's domain's invariant map. -/
def gg : (⟨Cert.ReferenceIdeal.S131072x256, .f32⟩ : BufTy).Contents (Elt Ideal) :=
  addf (F := Ideal) (s := Cert.ReferenceIdeal.S131072x256) (φ := .f32) (y12 x0 x1 x2 x3 x4 x5 x6)
    (Host.gather Cert.ReferenceIdeal.gather_S16384x256_S131072x1_S131072x256_1_0_n_n_0_1_1256 (invm x0 x1 x2 x3 x4 x5 x6 x7) (val_main_v84 (F := Ideal) x1))

/-- The kernel's result: (x·W_lin_idᵀ + y0·Wt0) + gg. -/
def out : Mat 131072 256 :=
  combine x0 (val_main_v36 (F := Ideal) x0 x2) (gg x0 x1 x2 x3 x4 x5 x6 x7) (val_main_v74 (F := Ideal) x8) (wt0 x5)

end Cert.Transfer.KValue

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Tile0.lean ====
/-
  The projection region as one function of its whole arrays.

  The region walks the 65536 rows in 16 blocks of 4096 rows. At block t it reads rows 4096·t … 4096·t + 4095 of the two row
  arrays A and B, the whole of the two 256 × 512 weight matrices WA and WB, and writes rows 4096·t … 4096·t + 4095 of the
  result: the sum of the two matrix products of the row blocks with the weights. Entry (p, q) of a product of a row block reads
  row p of the block only, so the block the region writes at t is rows 4096·t … of the one array A·WA + B·WB; the sixteen blocks
  tile the rows, so the result array ends holding A·WA + B·WB.
-/
import proofs.«116603_j10986526343793_2_alg».proof.Proof.Gen.KernelIdeal.Frame
import proofs.«116603_j10986526343793_2_alg».proof.Proof.Spec
import proofs.«116603_j10986526343793_2_alg».proof.Proof.LibDotCols
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.Transfer

/-- The zero offsets of a whole-buffer access. -/
theorem zeroOffsets : (![0, 0] : Fin 2 → Nat) = fun _ => 0 := funext fun a => by fin_cases a <;> rfl

/-! ## The body's stored value at an entry -/

/-- Entry (p, q) of what the body stores: the two products of the row blocks with the weights, summed. -/
theorem projBlock_apply (x0 x1 : Vec Ideal S4096x256 .f32) (x2 x3 : Vec Ideal S256x512 .f32) (p : Fin 4096) (q : Fin 512) :
    k0_pay1 (F := Ideal) x0 x2 x1 x3 (ix2 p q) = projAt x0 x1 x2 x3 p q := by
  unfold k0_pay1
  show (FloatOps.matmul (F := Ideal) dot_S4096x256_S256x512_S4096x512_1_0_0_1_n_n (some .fp32) (shapeCast S4096x256 x0 shapeCasts_S4096x256_S4096x256)
      (shapeCast S256x512 x2 shapeCasts_S256x512_S256x512) (constant S4096x512 .f32 0x00000000#32) (ix2 p q) : EReal)
    + FloatOps.matmul (F := Ideal) dot_S4096x256_S256x512_S4096x512_1_0_0_1_n_n (some .fp32) (shapeCast S4096x256 x1 shapeCasts_S4096x256_S4096x256)
      (shapeCast S256x512 x3 shapeCasts_S256x512_S256x512) (constant S4096x512 .f32 0x00000000#32) (ix2 p q) = _
  rw [shapeCast_self, shapeCast_self, shapeCast_self, shapeCast_self]
  exact congrArg₂ (· + ·)
    (Cert.Lib.DotCols.matmul_cols_apply dot_S4096x256_S256x512_S4096x512_1_0_0_1_n_n rfl (some .fp32) x0 x2 p q)
    (Cert.Lib.DotCols.matmul_cols_apply dot_S4096x256_S256x512_S4096x512_1_0_0_1_n_n rfl (some .fp32) x1 x3 p q)

/-- What the body stores, against whole arrays: when the row blocks hold rows `row p` of A and B and the weight blocks are the
    weights themselves, entry (p, q) of the stored block is entry (row p, q) of A·WA + B·WB. -/
theorem projBlock_rows (A B : Mat 65536 256) (WA WB : Mat 256 512) (x0 x1 : Vec Ideal S4096x256 .f32) (x2 x3 : Vec Ideal S256x512 .f32)
    (row : Fin 4096 → Fin 65536)
    (h0 : ∀ (p : Fin 4096) (k : Fin 256), x0 (ix2 p k) = A (ix2 (row p) k))
    (h1 : ∀ (p : Fin 4096) (k : Fin 256), x1 (ix2 p k) = B (ix2 (row p) k))
    (h2 : ∀ (k : Fin 256) (q : Fin 512), x2 (ix2 k q) = WA (ix2 k q))
    (h3 : ∀ (k : Fin 256) (q : Fin 512), x3 (ix2 k q) = WB (ix2 k q))
    (p : Fin 4096) (q : Fin 512) :
    k0_pay1 (F := Ideal) x0 x2 x1 x3 (ix2 p q) = proj A B WA WB (ix2 (row p) q) := by
  rw [projBlock_apply, proj_apply]
  unfold projAt dotAt
  exact congrArg₂ (· + ·)
    (Finset.sum_congr rfl fun k _ => by rw [h0 p k, h2 k q])
    (Finset.sum_congr rfl fun k _ => by rw [h1 p k, h3 k q])

/-! ## Where each window's block sits -/

/-- The block indices over the grid: at point t the two row windows and the result window are at row block t, column block 0;
    the two weight windows are at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid has sixteen points. -/
theorem point_lt0 (t : Fin cfg0.N) : t.val < 16 := lt_of_lt_of_eq t.isLt N_0

variable (V : (c : Dev nD) → (b : Ref sig .tc) → Buf (Elt Ideal) ((c : Thread nD τ).loc b))

/-- Block t of the first row array: its entry (p, k) is the array's entry (4096·t + p, k). -/
theorem rowsA_apply (c : Dev nD) (t : Fin cfg0.N) (p : Fin 4096) (k : Fin 256) (r : Fin 65536) (hr : r.val = t.val * 4096 + p.val) :
    (iblk0 (F := Ideal) V c 0 t : Vec Ideal S4096x256 .f32) (ix2 p k) = (V c main_v17 : Mat 65536 256) (ix2 r k) := by
  obtain ⟨e00, e01, -⟩ := blockIndex0 t
  unfold iblk0
  rw [View.read_apply]
  show V c main_v17 _ = V c main_v17 _
  refine congrArg _ (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- Block t of the second row array likewise. -/
theorem rowsB_apply (c : Dev nD) (t : Fin cfg0.N) (p : Fin 4096) (k : Fin 256) (r : Fin 65536) (hr : r.val = t.val * 4096 + p.val) :
    (iblk0 (F := Ideal) V c 1 t : Vec Ideal S4096x256 .f32) (ix2 p k) = (V c main_v35 : Mat 65536 256) (ix2 r k) := by
  obtain ⟨-, -, e10, e11, -⟩ := blockIndex0 t
  unfold iblk0
  rw [View.read_apply]
  show V c main_v35 _ = V c main_v35 _
  refine congrArg _ (funext fun a => Fin.ext ?_)
  match a with
  | ⟨0, _⟩ => show win0_1.index t (0 : Fin 2) * 4096 + 1 * p.val = r.val; omega
  | ⟨1, _⟩ => show win0_1.index t (1 : Fin 2) * 256 + 1 * k.val = k.val; omega

/-- The first weight window's block is the whole weight matrix at every point. -/
theorem weightA_apply (c : Dev nD) (t : Fin cfg0.N) (k : Fin 256) (q : Fin 512) :
    (iblk0 (F := Ideal) V c 2 t : Vec Ideal S256x512 .f32) (ix2 k q) = (V c main_v49 : Mat 256 512) (ix2 k q) := by
  obtain ⟨-, -, -, -, e20, e21, -⟩ := blockIndex0 t
  unfold iblk0
  rw [View.read_apply]
  show V c main_v49 _ = V c main_v49 _
  refine congrArg _ (funext fun a => Fin.ext ?_)
  match a with
  | ⟨0, _⟩ => show win0_2.index t (0 : Fin 2) * 256 + 1 * k.val = k.val; omega
  | ⟨1, _⟩ => show win0_2.index t (1 : Fin 2) * 512 + 1 * q.val = q.val; omega

/-- The second weight window's block likewise. -/
theorem weightB_apply (c : Dev nD) (t : Fin cfg0.N) (k : Fin 256) (q : Fin 512) :
    (iblk0 (F := Ideal) V c 3 t : Vec Ideal S256x512 .f32) (ix2 k q) = (V c main_v50 : Mat 256 512) (ix2 k q) := by
  obtain ⟨-, -, -, -, -, -, e30, e31, -⟩ := blockIndex0 t
  unfold iblk0
  rw [View.read_apply]
  show V c main_v50 _ = V c main_v50 _
  refine congrArg _ (funext fun a => Fin.ext ?_)
  match a with
  | ⟨0, _⟩ => show win0_3.index t (0 : Fin 2) * 256 + 1 * k.val = k.val; omega
  | ⟨1, _⟩ => show win0_3.index t (1 : Fin 2) * 512 + 1 * q.val = q.val; omega

/-! ## What each point writes back -/

/-- The row of the arrays that row p of block t is. -/
def rowOf0 (t : Fin cfg0.N) (p : Fin 4096) : Fin 65536 := ⟨t.val * 4096 + p.val, by have := point_lt0 t; have := p.isLt; omega⟩

/-- WHAT POINT t WRITES BACK is block t of A·WA + B·WB of the arrays as the region finds them. -/
theorem flushed0_eq (c : Dev nD) (t : Fin cfg0.N) :
    (dat0 (F := Ideal) V c).flushed 4 t = ((cfg0.win 4).blk t).view.read (Elt Ideal)
      (proj (V c main_v17 : Mat 65536 256) (V c main_v35 : Mat 65536 256) (V c main_v49 : Mat 256 512) (V c main_v50 : Mat 256 512)) := by
  show (cfg0.win 4).cut (grid0.coords t) ((dat0 (F := Ideal) V c).after 4 t) = _
  rw [after0_4]
  unfold out0_4
  rw [View.canon_unit_zero zeroOffsets]
  simp only [View.ld_unit_zero (S := S4096x256) zeroOffsets, View.ld_unit_zero (S := S256x512) zeroOffsets]
  obtain ⟨-, -, -, -, -, -, -, -, e40, e41⟩ := blockIndex0 t
  show (fun j : S4096x512.Idx => k0_pay1 (F := Ideal) (iblk0 (F := Ideal) V c 0 t) (iblk0 (F := Ideal) V c 2 t) (iblk0 (F := Ideal) V c 1 t) (iblk0 (F := Ideal) V c 3 t) j)
    = fun j : S4096x512.Idx => proj (V c main_v17 : Mat 65536 256) (V c main_v35 : Mat 65536 256) (V c main_v49 : Mat 256 512) (V c main_v50 : Mat 256 512) (((cfg0.win 4).blk t).view.emb j)
  funext j
  obtain ⟨p, q, rfl⟩ : ∃ (p : Fin 4096) (q : Fin 512), j = ix2 p q := ⟨j 0, j 1, eq_ix2 j⟩
  refine (projBlock_rows (V c main_v17 : Mat 65536 256) (V c main_v35 : Mat 65536 256) (V c main_v49 : Mat 256 512) (V c main_v50 : Mat 256 512)
    (iblk0 (F := Ideal) V c 0 t) (iblk0 (F := Ideal) V c 1 t) (iblk0 (F := Ideal) V c 2 t) (iblk0 (F := Ideal) V c 3 t) (rowOf0 t)
    (fun p k => rowsA_apply V c t p k (rowOf0 t p) rfl) (fun p k => rowsB_apply V c t p k (rowOf0 t p) rfl)
    (fun k q => weightA_apply V c t k q) (fun k q => weightB_apply V c t k q) p q).trans ?_
  refine congrArg _ (funext fun a => Fin.ext ?_)
  match a with
  | ⟨0, _⟩ => show t.val * 4096 + p.val = win0_4.index t (0 : Fin 2) * 4096 + 1 * p.val; omega
  | ⟨1, _⟩ => show q.val = win0_4.index t (1 : Fin 2) * 512 + 1 * q.val; omega

/-! ## The blocks tile the rows -/

/-- An index of the result array is in point t's block iff each coordinate is in the block's range on its axis. -/
theorem mem_block0 (t : Fin cfg0.N) (i : S65536x512.Idx) :
    i ∈ ((cfg0.win 4).blk t).view.set ↔ ∀ a : Fin 2, win0_4.index t a * S4096x512.size a ≤ (i a).val ∧ (i a).val < win0_4.index t a * S4096x512.size a + S4096x512.size a := by
  show i ∈ ((View.whole main_v53).slice (win0_4.rect t)).set ↔ _
  rw [View.set_slice_whole, Rect.mem_set_unit]
  exact Iff.rfl

/-- Every index of the result array is in the block of the point that its row falls in. -/
theorem covered0 (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  let t : Fin cfg0.N := ⟨(i 0).val / 4096, lt_of_lt_of_eq (by omega) N_0.symm⟩
  have ht : t.val = (i 0).val / 4096 := rfl
  obtain ⟨-, -, -, -, -, -, -, -, e40, e41⟩ := blockIndex0 t
  refine ⟨t, flush0_4 t, ?_⟩
  rw [mem_block0]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 512 ≤ (i 1).val ∧ (i 1).val < win0_4.index t (1 : Fin 2) * 512 + 512; omega

/-- THE RESULT ARRAY after the region: A·WA + B·WB of the arrays as the region finds them. -/
theorem final0 (c : Dev nD) :
    (dat0 (F := Ideal) V c).arrAt 4 cfg0.N
      = proj (V c main_v17 : Mat 65536 256) (V c main_v35 : Mat 65536 256) (V c main_v49 : Mat 256 512) (V c main_v50 : Mat 256 512) :=
  (dat0 (F := Ideal) V c).arrAt_eq_of_cover 4 _ (fun t _ => flushed0_eq V c t) covered0

end Cert.KernelIdeal.Tile

end
-- ==== Proof.KHost2.lean ====
/-
  From the first region to the second: the projection of the messages, and what the host makes of it.

  Region 0 leaves in its output array the projection uv of the messages and the domain messages (its row blocks are the
  same function of the operands' row blocks). The second stretch of host operations slices uv in two halves, gathers
  the left half along the edges and sums it per target atom, and sums the right half per target domain; every other
  buffer it reads was written by the first stretch and has not changed since.
-/
import proofs.«116603_j10986526343793_2_alg».proof.Proof.Gen.KernelIdeal.Frame
import proofs.«116603_j10986526343793_2_alg».proof.Proof.Gen.ReferenceIdeal.Read
import proofs.«116603_j10986526343793_2_alg».proof.Proof.KHost1
import proofs.«116603_j10986526343793_2_alg».proof.Proof.KValue
import proofs.«116603_j10986526343793_2_alg».proof.Proof.Tile0
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.Transfer

/-- Region 0's output array, after the region: the projection of the messages. -/
theorem second_v53 (c : Dev nD) : W2 (F := Ideal) m ρ c (Proc.devRef .tc main_v53) =
    KValue.uv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := (W2_arr m ρ c 4).trans (Cert.KernelIdeal.Tile.final0 (V1 m ρ) c)
  rw [first_v17, first_v35, first_v49, first_v50] at h
  exact h

/-- A buffer the first stretch wrote and region 0 does not touch, after the region. -/
theorem second_v3 (c : Dev nD) : W2 (F := Ideal) m ρ c (Proc.devRef .tc main_v3) = Cert.ReferenceIdeal.Read.val_main_v3 (F := Ideal) (m ((c : Thread nD τ).loc main_arg2)) :=
  (W2_of_ne m ρ c main_v3 (by decide)).trans (first_v3 m ρ c)
theorem second_v7 (c : Dev nD) : W2 (F := Ideal) m ρ c (Proc.devRef .tc main_v7) = Cert.ReferenceIdeal.Read.val_main_v59 (F := Ideal) (m ((c : Thread nD τ).loc main_arg4)) :=
  (W2_of_ne m ρ c main_v7 (by decide)).trans (first_v7 m ρ c)
theorem second_arg3 (c : Dev nD) : W2 (F := Ideal) m ρ c (Proc.devRef .tc main_arg3) = (m ((c : Thread nD τ).loc main_arg3)) :=
  (W2_of_ne m ρ c main_arg3 (by decide)).trans (first_arg3 m ρ c)
theorem second_arg1 (c : Dev nD) : W2 (F := Ideal) m ρ c (Proc.devRef .tc main_arg1) = (m ((c : Thread nD τ).loc main_arg1)) :=
  (W2_of_ne m ρ c main_arg1 (by decide)).trans (first_arg1 m ρ c)
theorem second_v28 (c : Dev nD) : W2 (F := Ideal) m ρ c (Proc.devRef .tc main_v28) = Cert.ReferenceIdeal.Read.val_main_v24 (F := Ideal) (m ((c : Thread nD τ).loc main_arg0)) (m ((c : Thread nD τ).loc main_arg1)) :=
  (W2_of_ne m ρ c main_v28 (by decide)).trans (first_v28 m ρ c)
theorem second_v51 (c : Dev nD) : W2 (F := Ideal) m ρ c (Proc.devRef .tc main_v51) = Cert.ReferenceIdeal.Read.val_main_v69 (F := Ideal) (m ((c : Thread nD τ).loc main_arg7)) :=
  (W2_of_ne m ρ c main_v51 (by decide)).trans (first_v51 m ρ c)
theorem second_v38 (c : Dev nD) : W2 (F := Ideal) m ρ c (Proc.devRef .tc main_v38) = Cert.ReferenceIdeal.Read.val_main_v36 (F := Ideal) (m ((c : Thread nD τ).loc main_arg0)) (m ((c : Thread nD τ).loc main_arg2)) :=
  (W2_of_ne m ρ c main_v38 (by decide)).trans (first_v38 m ρ c)
theorem second_v40 (c : Dev nD) : W2 (F := Ideal) m ρ c (Proc.devRef .tc main_v40) = Cert.KernelIdeal.Weights.wt0 (m ((c : Thread nD τ).loc main_arg5)) :=
  (W2_of_ne m ρ c main_v40 (by decide)).trans (first_v40 m ρ c)
theorem second_v52 (c : Dev nD) : W2 (F := Ideal) m ρ c (Proc.devRef .tc main_v52) = Cert.ReferenceIdeal.Read.val_main_v74 (F := Ideal) (m ((c : Thread nD τ).loc main_arg8)) :=
  (W2_of_ne m ρ c main_v52 (by decide)).trans (first_v52 m ρ c)
theorem second_arg0 (c : Dev nD) : W2 (F := Ideal) m ρ c (Proc.devRef .tc main_arg0) = (m ((c : Thread nD τ).loc main_arg0)) :=
  (W2_of_ne m ρ c main_arg0 (by decide)).trans (first_arg0 m ρ c)

/-- After the second stretch: the left half of the projection gathered along the edges and summed per target atom. -/
theorem third_v65 (c : Dev nD) : V3 (F := Ideal) m ρ c main_v65 = KValue.y12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v65) = _
  after_results_simp
  rw [second_v53, second_v3, second_arg3]
  rfl

/-- After the second stretch: the right half of the projection summed per target domain. -/
theorem third_v68 (c : Dev nD) : V3 (F := Ideal) m ρ c main_v68 = KValue.yinvx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v68) = _
  after_results_simp
  rw [second_v53, second_v7]
  rfl

/-- The second stretch leaves what it does not write. -/
theorem third_v28 (c : Dev nD) : V3 (F := Ideal) m ρ c main_v28 = Cert.ReferenceIdeal.Read.val_main_v24 (F := Ideal) (m ((c : Thread nD τ).loc main_arg0)) (m ((c : Thread nD τ).loc main_arg1)) := by
  show StableHlo.after hostOps1 (W2 m ρ c) (Proc.devRef .tc main_v28) = _
  after_results_simp
  exact second_v28 m ρ c
theorem third_v51 (c : Dev nD) : V3 (F := Ideal) m ρ c main_v51 = Cert.ReferenceIdeal.Read.val_main_v69 (F := Ideal) (m ((c : Thread nD τ).loc main_arg7)) := by
  show StableHlo.after hostOps1 (W2 m ρ c) (Proc.devRef .tc main_v51) = _
  after_results_simp
  exact second_v51 m ρ c
theorem third_v38 (c : Dev nD) : W3 (F := Ideal) m ρ c (Proc.devRef .tc main_v38) = Cert.ReferenceIdeal.Read.val_main_v36 (F := Ideal) (m ((c : Thread nD τ).loc main_arg0)) (m ((c : Thread nD τ).loc main_arg2)) := by
  show StableHlo.after hostOps1 (W2 m ρ c) (Proc.devRef .tc main_v38) = _
  after_results_simp
  exact second_v38 m ρ c
theorem third_v40 (c : Dev nD) : W3 (F := Ideal) m ρ c (Proc.devRef .tc main_v40) = Cert.KernelIdeal.Weights.wt0 (m ((c : Thread nD τ).loc main_arg5)) := by
  show StableHlo.after hostOps1 (W2 m ρ c) (Proc.devRef .tc main_v40) = _
  after_results_simp
  exact second_v40 m ρ c
theorem third_v52 (c : Dev nD) : W3 (F := Ideal) m ρ c (Proc.devRef .tc main_v52) = Cert.ReferenceIdeal.Read.val_main_v74 (F := Ideal) (m ((c : Thread nD τ).loc main_arg8)) := by
  show StableHlo.after hostOps1 (W2 m ρ c) (Proc.devRef .tc main_v52) = _
  after_results_simp
  exact second_v52 m ρ c
theorem third_arg0 (c : Dev nD) : W3 (F := Ideal) m ρ c (Proc.devRef .tc main_arg0) = (m ((c : Thread nD τ).loc main_arg0)) := by
  show StableHlo.after hostOps1 (W2 m ρ c) (Proc.devRef .tc main_arg0) = _
  after_results_simp
  exact second_arg0 m ρ c
theorem third_arg1 (c : Dev nD) : W3 (F := Ideal) m ρ c (Proc.devRef .tc main_arg1) = (m ((c : Thread nD τ).loc main_arg1)) := by
  show StableHlo.after hostOps1 (W2 m ρ c) (Proc.devRef .tc main_arg1) = _
  after_results_simp
  exact second_arg1 m ρ c

end Cert.KernelIdeal.HostValue

end
-- ==== Proof.Tile1.lean ====
/-
  The second dense region as one function of its whole arrays.

  The region walks the 16384 rows in 4 blocks of 4096 rows. At block t it reads rows 4096·t … 4096·t + 4095 of the row array X
  and of the addend G, the whole 256 × 256 weight matrix W, and writes the same rows of the result: the matrix product of the
  row block with the weights plus the addend's block. Entry (p, q) of the product reads row p of the block only, so the block
  the region writes at t is rows 4096·t … of the one array X·W + G; the four blocks tile the rows, so the result array ends
  holding X·W + G.
-/
import proofs.«116603_j10986526343793_2_alg».proof.Proof.Gen.KernelIdeal.Frame
import proofs.«116603_j10986526343793_2_alg».proof.Proof.Spec
import proofs.«116603_j10986526343793_2_alg».proof.Proof.LibDotCols
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.Transfer

/-- The zero offsets of a whole-buffer access. -/
theorem zeroOffsets1 : (![0, 0] : Fin 2 → Nat) = fun _ => 0 := funext fun a => by fin_cases a <;> rfl

/-! ## The body's stored value at an entry -/

/-- Entry (p, q) of what the body stores: the product of the row block with the weights, plus the addend's entry. -/
theorem affineBlock_apply (x0 x1 : Vec Ideal S4096x256 .f32) (x2 : Vec Ideal S256x256 .f32) (p : Fin 4096) (q : Fin 256) :
    k1_pay1 (F := Ideal) x0 x2 x1 (ix2 p q) = affineAt x0 x1 x2 p q := by
  unfold k1_pay1
  show (FloatOps.matmul (F := Ideal) dot_S4096x256_S256x256_S4096x256_1_0_0_1_n_n (some .fp32) (shapeCast S4096x256 x0 shapeCasts_S4096x256_S4096x256)
      (shapeCast S256x256 x2 shapeCasts_S256x256_S256x256) (constant S4096x256 .f32 0x00000000#32) (ix2 p q) : EReal)
    + shapeCast S4096x256 x1 shapeCasts_S4096x256_S4096x256 (ix2 p q) = _
  rw [shapeCast_self, shapeCast_self, shapeCast_self]
  exact congrArg (· + x1 (ix2 p q))
    (Cert.Lib.DotCols.matmul_cols_apply dot_S4096x256_S256x256_S4096x256_1_0_0_1_n_n rfl (some .fp32) x0 x2 p q)

/-- What the body stores, against whole arrays: when the row block and the addend's block hold rows `row p` of X and G and the
    weight block is the weights themselves, entry (p, q) of the stored block is entry (row p, q) of X·W + G. -/
theorem affineBlock_rows (X G : Mat 16384 256) (W : Mat 256 256) (x0 x1 : Vec Ideal S4096x256 .f32) (x2 : Vec Ideal S256x256 .f32)
    (row : Fin 4096 → Fin 16384)
    (h0 : ∀ (p : Fin 4096) (k : Fin 256), x0 (ix2 p k) = X (ix2 (row p) k))
    (h1 : ∀ (p : Fin 4096) (k : Fin 256), x1 (ix2 p k) = G (ix2 (row p) k))
    (h2 : ∀ (k : Fin 256) (q : Fin 256), x2 (ix2 k q) = W (ix2 k q))
    (p : Fin 4096) (q : Fin 256) :
    k1_pay1 (F := Ideal) x0 x2 x1 (ix2 p q) = affine X G W (ix2 (row p) q) := by
  rw [affineBlock_apply, affine_apply]
  unfold affineAt dotAt
  exact congrArg₂ (· + ·)
    (Finset.sum_congr rfl fun k _ => by rw [h0 p k, h2 k q])
    (h1 p q)

/-! ## Where each window's block sits -/

/-- The block indices over the grid: at point t the row window, the addend's window and the result window are at row block t,
    column block 0; the weight window is at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The grid has four points. -/
theorem point_lt1 (t : Fin cfg1.N) : t.val < 4 := lt_of_lt_of_eq t.isLt N_1

variable (V : (c : Dev nD) → (b : Ref sig .tc) → Buf (Elt Ideal) ((c : Thread nD τ).loc b))

/-- Block t of the row array: its entry (p, k) is the array's entry (4096·t + p, k). -/
theorem rowsX1_apply (c : Dev nD) (t : Fin cfg1.N) (p : Fin 4096) (k : Fin 256) (r : Fin 16384) (hr : r.val = t.val * 4096 + p.val) :
    (iblk1 (F := Ideal) V c 0 t : Vec Ideal S4096x256 .f32) (ix2 p k) = (V c main_v28 : Mat 16384 256) (ix2 r k) := by
  obtain ⟨e00, e01, -⟩ := blockIndex1 t
  unfold iblk1
  rw [View.read_apply]
  show V c main_v28 _ = V c main_v28 _
  refine congrArg _ (funext fun a => Fin.ext ?_)
  match a with
  | ⟨0, _⟩ => show win1_0.index t (0 : Fin 2) * 4096 + 1 * p.val = r.val; omega
  | ⟨1, _⟩ => show win1_0.index t (1 : Fin 2) * 256 + 1 * k.val = k.val; omega

/-- Block t of the addend likewise. -/
theorem rowsG1_apply (c : Dev nD) (t : Fin cfg1.N) (p : Fin 4096) (k : Fin 256) (r : Fin 16384) (hr : r.val = t.val * 4096 + p.val) :
    (iblk1 (F := Ideal) V c 1 t : Vec Ideal S4096x256 .f32) (ix2 p k) = (V c main_v68 : Mat 16384 256) (ix2 r k) := by
  obtain ⟨-, -, e10, e11, -⟩ := blockIndex1 t
  unfold iblk1
  rw [View.read_apply]
  show V c main_v68 _ = V c main_v68 _
  refine congrArg _ (funext fun a => Fin.ext ?_)
  match a with
  | ⟨0, _⟩ => show win1_1.index t (0 : Fin 2) * 4096 + 1 * p.val = r.val; omega
  | ⟨1, _⟩ => show win1_1.index t (1 : Fin 2) * 256 + 1 * k.val = k.val; omega

/-- The weight window's block is the whole weight matrix at every point. -/
theorem weight1_apply (c : Dev nD) (t : Fin cfg1.N) (k : Fin 256) (q : Fin 256) :
    (iblk1 (F := Ideal) V c 2 t : Vec Ideal S256x256 .f32) (ix2 k q) = (V c main_v51 : Mat 256 256) (ix2 k q) := by
  obtain ⟨-, -, -, -, e20, e21, -⟩ := blockIndex1 t
  unfold iblk1
  rw [View.read_apply]
  show V c main_v51 _ = V c main_v51 _
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

/-! ## What each point writes back -/

/-- The row of the arrays that row p of block t is. -/
def rowOf1 (t : Fin cfg1.N) (p : Fin 4096) : Fin 16384 := ⟨t.val * 4096 + p.val, by have := point_lt1 t; have := p.isLt; omega⟩

/-- WHAT POINT t WRITES BACK is block t of X·W + G of the arrays as the region finds them. -/
theorem flushed1_eq (c : Dev nD) (t : Fin cfg1.N) :
    (dat1 (F := Ideal) V c).flushed 3 t = ((cfg1.win 3).blk t).view.read (Elt Ideal)
      (affine (V c main_v28 : Mat 16384 256) (V c main_v68 : Mat 16384 256) (V c main_v51 : Mat 256 256)) := by
  show (cfg1.win 3).cut (grid1.coords t) ((dat1 (F := Ideal) V c).after 3 t) = _
  rw [after1_3]
  unfold out1_3
  rw [View.canon_unit_zero zeroOffsets1]
  simp only [View.ld_unit_zero (S := S4096x256) zeroOffsets1, View.ld_unit_zero (S := S256x256) zeroOffsets1]
  obtain ⟨-, -, -, -, -, -, e30, e31⟩ := blockIndex1 t
  show (fun j : S4096x256.Idx => k1_pay1 (F := Ideal) (iblk1 (F := Ideal) V c 0 t) (iblk1 (F := Ideal) V c 2 t) (iblk1 (F := Ideal) V c 1 t) j)
    = fun j : S4096x256.Idx => affine (V c main_v28 : Mat 16384 256) (V c main_v68 : Mat 16384 256) (V c main_v51 : Mat 256 256) (((cfg1.win 3).blk t).view.emb j)
  funext j
  obtain ⟨p, q, rfl⟩ : ∃ (p : Fin 4096) (q : Fin 256), j = ix2 p q := ⟨j 0, j 1, eq_ix2 j⟩
  refine (affineBlock_rows (V c main_v28 : Mat 16384 256) (V c main_v68 : Mat 16384 256) (V c main_v51 : Mat 256 256)
    (iblk1 (F := Ideal) V c 0 t) (iblk1 (F := Ideal) V c 1 t) (iblk1 (F := Ideal) V c 2 t) (rowOf1 t)
    (fun p k => rowsX1_apply V c t p k (rowOf1 t p) rfl) (fun p k => rowsG1_apply V c t p k (rowOf1 t p) rfl)
    (fun k q => weight1_apply V c t k q) p q).trans ?_
  refine congrArg _ (funext fun a => Fin.ext ?_)
  match a with
  | ⟨0, _⟩ => show t.val * 4096 + p.val = win1_3.index t (0 : Fin 2) * 4096 + 1 * p.val; omega
  | ⟨1, _⟩ => show q.val = win1_3.index t (1 : Fin 2) * 256 + 1 * q.val; omega

/-! ## The blocks tile the rows -/

/-- An index of the result array is in point t's block iff each coordinate is in the block's range on its axis. -/
theorem mem_block1 (t : Fin cfg1.N) (i : S16384x256.Idx) :
    i ∈ ((cfg1.win 3).blk t).view.set ↔ ∀ a : Fin 2, win1_3.index t a * S4096x256.size a ≤ (i a).val ∧ (i a).val < win1_3.index t a * S4096x256.size a + S4096x256.size a := by
  show i ∈ ((View.whole main_v69).slice (win1_3.rect t)).set ↔ _
  rw [View.set_slice_whole, Rect.mem_set_unit]
  exact Iff.rfl

/-- Every index of the result array is in the block of the point that its row falls in. -/
theorem covered1 (i : S16384x256.Idx) : ∃ t : Fin cfg1.N, (cfg1.win 3).flush t = true ∧ i ∈ ((cfg1.win 3).blk t).view.set := by
  have hi0 : (i 0).val < 16384 := (i 0).isLt
  have hi1 : (i 1).val < 256 := (i 1).isLt
  let t : Fin cfg1.N := ⟨(i 0).val / 4096, lt_of_lt_of_eq (by omega) N_1.symm⟩
  have ht : t.val = (i 0).val / 4096 := rfl
  obtain ⟨-, -, -, -, -, -, e30, e31⟩ := blockIndex1 t
  refine ⟨t, flush1_3 t, ?_⟩
  rw [mem_block1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 256 ≤ (i 1).val ∧ (i 1).val < win1_3.index t (1 : Fin 2) * 256 + 256; omega

/-- THE RESULT ARRAY after the region: X·W + G of the arrays as the region finds them. -/
theorem final1 (c : Dev nD) :
    (dat1 (F := Ideal) V c).arrAt 3 cfg1.N
      = affine (V c main_v28 : Mat 16384 256) (V c main_v68 : Mat 16384 256) (V c main_v51 : Mat 256 256) :=
  (dat1 (F := Ideal) V c).arrAt_eq_of_cover 3 _ (fun t _ => flushed1_eq V c t) covered1

end Cert.KernelIdeal.Tile

end
-- ==== Proof.Tile2.lean ====
/-
  The third dense region as one function of its whole arrays.

  The region walks the 131072 rows in 32 blocks of 4096 rows. At block t it reads rows 4096·t … 4096·t + 4095 of the two row
  arrays X and Y and of the addend G, the whole of the two 256 × 256 weight matrices WX and WY, and writes the same rows of the
  result: the sum of the two matrix products of the row blocks with the weights, plus the addend's block. Entry (p, q) of a
  product reads row p of the block only, so the block the region writes at t is rows 4096·t … of the one array
  (X·WX + Y·WY) + G; the thirty-two blocks tile the rows, so the result array ends holding (X·WX + Y·WY) + G.
-/
import proofs.«116603_j10986526343793_2_alg».proof.Proof.Gen.KernelIdeal.Frame
import proofs.«116603_j10986526343793_2_alg».proof.Proof.Spec
import proofs.«116603_j10986526343793_2_alg».proof.Proof.LibDotCols
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)
open Cert.Transfer

/-- The zero offsets of a whole-buffer access. -/
theorem zeroOffsets2 : (![0, 0] : Fin 2 → Nat) = fun _ => 0 := funext fun a => by fin_cases a <;> rfl

/-! ## The body's stored value at an entry -/

/-- Entry (p, q) of what the body stores: the two products of the row blocks with the weights, summed, plus the addend's entry. -/
theorem combineBlock_apply (x0 x1 x2 : Vec Ideal S4096x256 .f32) (x3 x4 : Vec Ideal S256x256 .f32) (p : Fin 4096) (q : Fin 256) :
    k2_pay1 (F := Ideal) x0 x3 x1 x4 x2 (ix2 p q) = combineAt x0 x1 x2 x3 x4 p q := by
  unfold k2_pay1
  show ((FloatOps.matmul (F := Ideal) dot_S4096x256_S256x256_S4096x256_1_0_0_1_n_n (some .fp32) x0
        (shapeCast S256x256 x3 shapeCasts_S256x256_S256x256) (constant S4096x256 .f32 0x00000000#32) (ix2 p q) : EReal)
      + FloatOps.matmul (F := Ideal) dot_S4096x256_S256x256_S4096x256_1_0_0_1_n_n (some .fp32) (shapeCast S4096x256 x1 shapeCasts_S4096x256_S4096x256)
        (shapeCast S256x256 x4 shapeCasts_S256x256_S256x256) (constant S4096x256 .f32 0x00000000#32) (ix2 p q))
    + shapeCast S4096x256 x2 shapeCasts_S4096x256_S4096x256 (ix2 p q) = _
  rw [shapeCast_self, shapeCast_self, shapeCast_self, shapeCast_self]
  exact congrArg (· + x2 (ix2 p q)) (congrArg₂ (· + ·)
    (Cert.Lib.DotCols.matmul_cols_apply dot_S4096x256_S256x256_S4096x256_1_0_0_1_n_n rfl (some .fp32) x0 x3 p q)
    (Cert.Lib.DotCols.matmul_cols_apply dot_S4096x256_S256x256_S4096x256_1_0_0_1_n_n rfl (some .fp32) x1 x4 p q))

/-- What the body stores, against whole arrays: when the row blocks and the addend's block hold rows `row p` of X, Y and G and
    the weight blocks are the weights themselves, entry (p, q) of the stored block is entry (row p, q) of (X·WX + Y·WY) + G. -/
theorem combineBlock_rows (X Y G : Mat 131072 256) (WX WY : Mat 256 256) (x0 x1 x2 : Vec Ideal S4096x256 .f32) (x3 x4 : Vec Ideal S256x256 .f32)
    (row : Fin 4096 → Fin 131072)
    (h0 : ∀ (p : Fin 4096) (k : Fin 256), x0 (ix2 p k) = X (ix2 (row p) k))
    (h1 : ∀ (p : Fin 4096) (k : Fin 256), x1 (ix2 p k) = Y (ix2 (row p) k))
    (h2 : ∀ (p : Fin 4096) (k : Fin 256), x2 (ix2 p k) = G (ix2 (row p) k))
    (h3 : ∀ (k : Fin 256) (q : Fin 256), x3 (ix2 k q) = WX (ix2 k q))
    (h4 : ∀ (k : Fin 256) (q : Fin 256), x4 (ix2 k q) = WY (ix2 k q))
    (p : Fin 4096) (q : Fin 256) :
    k2_pay1 (F := Ideal) x0 x3 x1 x4 x2 (ix2 p q) = combine X Y G WX WY (ix2 (row p) q) := by
  rw [combineBlock_apply, combine_apply]
  unfold combineAt dotAt
  exact congrArg₂ (· + ·) (congrArg₂ (· + ·)
    (Finset.sum_congr rfl fun k _ => by rw [h0 p k, h3 k q])
    (Finset.sum_congr rfl fun k _ => by rw [h1 p k, h4 k q]))
    (h2 p q)

/-! ## Where each window's block sits -/

/-- The block indices over the grid: at point t the two row windows, the addend's window and the result window are at row
    block t, column block 0; the two weight windows are at block (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The grid has thirty-two points. -/
theorem point_lt2 (t : Fin cfg2.N) : t.val < 32 := lt_of_lt_of_eq t.isLt N_2

variable (V : (c : Dev nD) → (b : Ref sig .tc) → Buf (Elt Ideal) ((c : Thread nD τ).loc b))

/-- Block t of the first row array: its entry (p, k) is the array's entry (4096·t + p, k). -/
theorem rowsX2_apply (c : Dev nD) (t : Fin cfg2.N) (p : Fin 4096) (k : Fin 256) (r : Fin 131072) (hr : r.val = t.val * 4096 + p.val) :
    (iblk2 (F := Ideal) V c 0 t : Vec Ideal S4096x256 .f32) (ix2 p k) = (V c main_arg0 : Mat 131072 256) (ix2 r k) := by
  obtain ⟨e00, e01, -⟩ := blockIndex2 t
  unfold iblk2
  rw [View.read_apply]
  show V c main_arg0 _ = V c main_arg0 _
  refine congrArg _ (funext fun a => Fin.ext ?_)
  match a with
  | ⟨0, _⟩ => show win2_0.index t (0 : Fin 2) * 4096 + 1 * p.val = r.val; omega
  | ⟨1, _⟩ => show win2_0.index t (1 : Fin 2) * 256 + 1 * k.val = k.val; omega

/-- Block t of the second row array likewise. -/
theorem rowsY2_apply (c : Dev nD) (t : Fin cfg2.N) (p : Fin 4096) (k : Fin 256) (r : Fin 131072) (hr : r.val = t.val * 4096 + p.val) :
    (iblk2 (F := Ideal) V c 1 t : Vec Ideal S4096x256 .f32) (ix2 p k) = (V c main_v38 : Mat 131072 256) (ix2 r k) := by
  obtain ⟨-, -, e10, e11, -⟩ := blockIndex2 t
  unfold iblk2
  rw [View.read_apply]
  show V c main_v38 _ = V c main_v38 _
  refine congrArg _ (funext fun a => Fin.ext ?_)
  match a with
  | ⟨0, _⟩ => show win2_1.index t (0 : Fin 2) * 4096 + 1 * p.val = r.val; omega
  | ⟨1, _⟩ => show win2_1.index t (1 : Fin 2) * 256 + 1 * k.val = k.val; omega

/-- Block t of the addend likewise. -/
theorem rowsG2_apply (c : Dev nD) (t : Fin cfg2.N) (p : Fin 4096) (k : Fin 256) (r : Fin 131072) (hr : r.val = t.val * 4096 + p.val) :
    (iblk2 (F := Ideal) V c 2 t : Vec Ideal S4096x256 .f32) (ix2 p k) = (V c main_v77 : Mat 131072 256) (ix2 r k) := by
  obtain ⟨-, -, -, -, e20, e21, -⟩ := blockIndex2 t
  unfold iblk2
  rw [View.read_apply]
  show V c main_v77 _ = V c main_v77 _
  refine congrArg _ (funext fun a => Fin.ext ?_)
  match a with
  | ⟨0, _⟩ => show win2_2.index t (0 : Fin 2) * 4096 + 1 * p.val = r.val; omega
  | ⟨1, _⟩ => show win2_2.index t (1 : Fin 2) * 256 + 1 * k.val = k.val; omega

/-- The first weight window's block is the whole weight matrix at every point. -/
theorem weightX2_apply (c : Dev nD) (t : Fin cfg2.N) (k : Fin 256) (q : Fin 256) :
    (iblk2 (F := Ideal) V c 3 t : Vec Ideal S256x256 .f32) (ix2 k q) = (V c main_v52 : Mat 256 256) (ix2 k q) := by
  obtain ⟨-, -, -, -, -, -, e30, e31, -⟩ := blockIndex2 t
  unfold iblk2
  rw [View.read_apply]
  show V c main_v52 _ = V c main_v52 _
  refine congrArg _ (funext fun a => Fin.ext ?_)
  match a with
  | ⟨0, _⟩ => show win2_3.index t (0 : Fin 2) * 256 + 1 * k.val = k.val; omega
  | ⟨1, _⟩ => show win2_3.index t (1 : Fin 2) * 256 + 1 * q.val = q.val; omega

/-- The second weight window's block likewise. -/
theorem weightY2_apply (c : Dev nD) (t : Fin cfg2.N) (k : Fin 256) (q : Fin 256) :
    (iblk2 (F := Ideal) V c 4 t : Vec Ideal S256x256 .f32) (ix2 k q) = (V c main_v40 : Mat 256 256) (ix2 k q) := by
  obtain ⟨-, -, -, -, -, -, -, -, e40, e41, -⟩ := blockIndex2 t
  unfold iblk2
  rw [View.read_apply]
  show V c main_v40 _ = V c main_v40 _
  refine congrArg _ (funext fun a => Fin.ext ?_)
  match a with
  | ⟨0, _⟩ => show win2_4.index t (0 : Fin 2) * 256 + 1 * k.val = k.val; omega
  | ⟨1, _⟩ => show win2_4.index t (1 : Fin 2) * 256 + 1 * q.val = q.val; omega

/-! ## What each point writes back -/

/-- The row of the arrays that row p of block t is. -/
def rowOf2 (t : Fin cfg2.N) (p : Fin 4096) : Fin 131072 := ⟨t.val * 4096 + p.val, by have := point_lt2 t; have := p.isLt; omega⟩

/-- WHAT POINT t WRITES BACK is block t of (X·WX + Y·WY) + G of the arrays as the region finds them. -/
theorem flushed2_eq (c : Dev nD) (t : Fin cfg2.N) :
    (dat2 (F := Ideal) V c).flushed 5 t = ((cfg2.win 5).blk t).view.read (Elt Ideal)
      (combine (V c main_arg0 : Mat 131072 256) (V c main_v38 : Mat 131072 256) (V c main_v77 : Mat 131072 256)
        (V c main_v52 : Mat 256 256) (V c main_v40 : Mat 256 256)) := by
  show (cfg2.win 5).cut (grid2.coords t) ((dat2 (F := Ideal) V c).after 5 t) = _
  rw [after2_5]
  unfold out2_5
  rw [View.canon_unit_zero zeroOffsets2]
  simp only [View.ld_unit_zero (S := S4096x256) zeroOffsets2, View.ld_unit_zero (S := S256x256) zeroOffsets2]
  obtain ⟨-, -, -, -, -, -, -, -, -, -, e50, e51⟩ := blockIndex2 t
  show (fun j : S4096x256.Idx => k2_pay1 (F := Ideal) (iblk2 (F := Ideal) V c 0 t) (iblk2 (F := Ideal) V c 3 t) (iblk2 (F := Ideal) V c 1 t)
      (iblk2 (F := Ideal) V c 4 t) (iblk2 (F := Ideal) V c 2 t) j)
    = fun j : S4096x256.Idx => combine (V c main_arg0 : Mat 131072 256) (V c main_v38 : Mat 131072 256) (V c main_v77 : Mat 131072 256)
        (V c main_v52 : Mat 256 256) (V c main_v40 : Mat 256 256) (((cfg2.win 5).blk t).view.emb j)
  funext j
  obtain ⟨p, q, rfl⟩ : ∃ (p : Fin 4096) (q : Fin 256), j = ix2 p q := ⟨j 0, j 1, eq_ix2 j⟩
  refine (combineBlock_rows (V c main_arg0 : Mat 131072 256) (V c main_v38 : Mat 131072 256) (V c main_v77 : Mat 131072 256)
    (V c main_v52 : Mat 256 256) (V c main_v40 : Mat 256 256)
    (iblk2 (F := Ideal) V c 0 t) (iblk2 (F := Ideal) V c 1 t) (iblk2 (F := Ideal) V c 2 t) (iblk2 (F := Ideal) V c 3 t) (iblk2 (F := Ideal) V c 4 t) (rowOf2 t)
    (fun p k => rowsX2_apply V c t p k (rowOf2 t p) rfl) (fun p k => rowsY2_apply V c t p k (rowOf2 t p) rfl)
    (fun p k => rowsG2_apply V c t p k (rowOf2 t p) rfl)
    (fun k q => weightX2_apply V c t k q) (fun k q => weightY2_apply V c t k q) p q).trans ?_
  refine congrArg _ (funext fun a => Fin.ext ?_)
  match a with
  | ⟨0, _⟩ => show t.val * 4096 + p.val = win2_5.index t (0 : Fin 2) * 4096 + 1 * p.val; omega
  | ⟨1, _⟩ => show q.val = win2_5.index t (1 : Fin 2) * 256 + 1 * q.val; omega

/-! ## The blocks tile the rows -/

/-- An index of the result array is in point t's block iff each coordinate is in the block's range on its axis. -/
theorem mem_block2 (t : Fin cfg2.N) (i : S131072x256.Idx) :
    i ∈ ((cfg2.win 5).blk t).view.set ↔ ∀ a : Fin 2, win2_5.index t a * S4096x256.size a ≤ (i a).val ∧ (i a).val < win2_5.index t a * S4096x256.size a + S4096x256.size a := by
  show i ∈ ((View.whole main_v78).slice (win2_5.rect t)).set ↔ _
  rw [View.set_slice_whole, Rect.mem_set_unit]
  exact Iff.rfl

/-- Every index of the result array is in the block of the point that its row falls in. -/
theorem covered2 (i : S131072x256.Idx) : ∃ t : Fin cfg2.N, (cfg2.win 5).flush t = true ∧ i ∈ ((cfg2.win 5).blk t).view.set := by
  have hi0 : (i 0).val < 131072 := (i 0).isLt
  have hi1 : (i 1).val < 256 := (i 1).isLt
  let t : Fin cfg2.N := ⟨(i 0).val / 4096, lt_of_lt_of_eq (by omega) N_2.symm⟩
  have ht : t.val = (i 0).val / 4096 := rfl
  obtain ⟨-, -, -, -, -, -, -, -, -, -, e50, e51⟩ := blockIndex2 t
  refine ⟨t, flush2_5 t, ?_⟩
  rw [mem_block2]
  intro a
  match a with
  | ⟨0, _⟩ => show win2_5.index t (0 : Fin 2) * 4096 ≤ (i 0).val ∧ (i 0).val < win2_5.index t (0 : Fin 2) * 4096 + 4096; omega
  | ⟨1, _⟩ => show win2_5.index t (1 : Fin 2) * 256 ≤ (i 1).val ∧ (i 1).val < win2_5.index t (1 : Fin 2) * 256 + 256; omega

/-- THE RESULT ARRAY after the region: (X·WX + Y·WY) + G of the arrays as the region finds them. -/
theorem final2 (c : Dev nD) :
    (dat2 (F := Ideal) V c).arrAt 5 cfg2.N
      = combine (V c main_arg0 : Mat 131072 256) (V c main_v38 : Mat 131072 256) (V c main_v77 : Mat 131072 256)
          (V c main_v52 : Mat 256 256) (V c main_v40 : Mat 256 256) :=
  (dat2 (F := Ideal) V c).arrAt_eq_of_cover 5 _ (fun t _ => flushed2_eq V c t) covered2

end Cert.KernelIdeal.Tile

end
-- ==== Proof.KHost3.lean ====
/-
  From the second region to the result.

  Region 1 leaves in its output array the invariant maps (the domain means projected, plus the right half of the
  messages' projection summed per domain). The last stretch of host operations gathers them along the atoms' domains
  and adds the per-atom sum of the left half; region 2 adds that to the two dense products of the atoms' own rows. Its
  output array is the program's result.
-/
import proofs.«116603_j10986526343793_2_alg».proof.Proof.Gen.KernelIdeal.Frame
import proofs.«116603_j10986526343793_2_alg».proof.Proof.Gen.ReferenceIdeal.Read
import proofs.«116603_j10986526343793_2_alg».proof.Proof.KHost2
import proofs.«116603_j10986526343793_2_alg».proof.Proof.Tile1
import proofs.«116603_j10986526343793_2_alg».proof.Proof.Tile2
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

open Cert.Transfer

/-- Region 1's output array, after the region: the invariant maps. -/
theorem fourth_v69 (c : Dev nD) : W4 (F := Ideal) m ρ c (Proc.devRef .tc main_v69) =
    KValue.invm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W4_arr m ρ c 3).trans (Cert.KernelIdeal.Tile.final1 (V3 m ρ) c)
  rw [third_v28, third_v68, third_v51] at h
  exact h

/-- Region 1 leaves what is not one of its arrays. -/
theorem fourth_v65 (c : Dev nD) : W4 (F := Ideal) m ρ c (Proc.devRef .tc main_v65) = KValue.y12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_of_ne m ρ c main_v65 (by decide)).trans (third_v65 m ρ c)

/-- Region 1 leaves what is not one of its arrays. -/
theorem fourth_arg1 (c : Dev nD) : W4 (F := Ideal) m ρ c (Proc.devRef .tc main_arg1) = (m ((c : Thread nD τ).loc main_arg1)) :=
  (W4_of_ne m ρ c main_arg1 (by decide)).trans (third_arg1 m ρ c)

/-- Region 1 leaves what is not one of its arrays. -/
theorem fourth_v38 (c : Dev nD) : W4 (F := Ideal) m ρ c (Proc.devRef .tc main_v38) = Cert.ReferenceIdeal.Read.val_main_v36 (F := Ideal) (m ((c : Thread nD τ).loc main_arg0)) (m ((c : Thread nD τ).loc main_arg2)) :=
  (W4_of_ne m ρ c main_v38 (by decide)).trans (third_v38 m ρ c)

/-- Region 1 leaves what is not one of its arrays. -/
theorem fourth_v40 (c : Dev nD) : W4 (F := Ideal) m ρ c (Proc.devRef .tc main_v40) = Cert.KernelIdeal.Weights.wt0 (m ((c : Thread nD τ).loc main_arg5)) :=
  (W4_of_ne m ρ c main_v40 (by decide)).trans (third_v40 m ρ c)

/-- Region 1 leaves what is not one of its arrays. -/
theorem fourth_v52 (c : Dev nD) : W4 (F := Ideal) m ρ c (Proc.devRef .tc main_v52) = Cert.ReferenceIdeal.Read.val_main_v74 (F := Ideal) (m ((c : Thread nD τ).loc main_arg8)) :=
  (W4_of_ne m ρ c main_v52 (by decide)).trans (third_v52 m ρ c)

/-- Region 1 leaves what is not one of its arrays. -/
theorem fourth_arg0 (c : Dev nD) : W4 (F := Ideal) m ρ c (Proc.devRef .tc main_arg0) = (m ((c : Thread nD τ).loc main_arg0)) :=
  (W4_of_ne m ρ c main_arg0 (by decide)).trans (third_arg0 m ρ c)

/-- After the last stretch: the per-atom sum of the left half plus each atom's domain's invariant map. -/
theorem fifth_v77 (c : Dev nD) : V5 (F := Ideal) m ρ c main_v77 = KValue.gg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v77) = _
  after_results_simp
  rw [fourth_v65, fourth_v69, fourth_arg1]
  rfl

/-- The last stretch leaves what it does not write. -/
theorem fifth_v38 (c : Dev nD) : V5 (F := Ideal) m ρ c main_v38 = Cert.ReferenceIdeal.Read.val_main_v36 (F := Ideal) (m ((c : Thread nD τ).loc main_arg0)) (m ((c : Thread nD τ).loc main_arg2)) := by
  show StableHlo.after hostOps2 (W4 m ρ c) (Proc.devRef .tc main_v38) = _
  after_results_simp
  exact fourth_v38 m ρ c

/-- The last stretch leaves what it does not write. -/
theorem fifth_v40 (c : Dev nD) : V5 (F := Ideal) m ρ c main_v40 = Cert.KernelIdeal.Weights.wt0 (m ((c : Thread nD τ).loc main_arg5)) := by
  show StableHlo.after hostOps2 (W4 m ρ c) (Proc.devRef .tc main_v40) = _
  after_results_simp
  exact fourth_v40 m ρ c

/-- The last stretch leaves what it does not write. -/
theorem fifth_v52 (c : Dev nD) : V5 (F := Ideal) m ρ c main_v52 = Cert.ReferenceIdeal.Read.val_main_v74 (F := Ideal) (m ((c : Thread nD τ).loc main_arg8)) := by
  show StableHlo.after hostOps2 (W4 m ρ c) (Proc.devRef .tc main_v52) = _
  after_results_simp
  exact fourth_v52 m ρ c

/-- The last stretch leaves what it does not write. -/
theorem fifth_arg0 (c : Dev nD) : V5 (F := Ideal) m ρ c main_arg0 = (m ((c : Thread nD τ).loc main_arg0)) := by
  show StableHlo.after hostOps2 (W4 m ρ c) (Proc.devRef .tc main_arg0) = _
  after_results_simp
  exact fourth_arg0 m ρ c

/-- THE KERNEL'S RESULT: region 2's output array after the run is the transfer layer's output as one function of
    the nine argument arrays. -/
theorem result_eq (c : Dev nD) : W6 (F := Ideal) m ρ c (Proc.devRef .tc main_v78) = KValue.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W6_arr m ρ c 5).trans (Cert.KernelIdeal.Tile.final2 (V5 m ρ) c)
  rw [fifth_arg0, fifth_v38, fifth_v77, fifth_v52, fifth_v40] at h
  exact h

end Cert.KernelIdeal.HostValue

end
-- ==== Proof.KEntry.lean ====
/-
  The kernel's result at one entry, as nested sums over the argument arrays.

  The result is (x·W_lin_idᵀ + y0·Wt0) + gg.  Entry (n, q) of the second product reads the transposed weight block, which
  is an entry of the first weight argument.  The addend gg at (n, q) is the per-atom sum, over the edges aimed at atom n,
  of the left half of the projection of that edge's message row, plus the invariant map of atom n's domain d: the
  product xinv·W_lin_invᵀ at (d, q) plus the sum, over the messages aimed at d, of the right half of the projection.
  Each half of the projection, at a row and a column, is two inner products of that row of the message arrays with a row
  of a weight argument (the re-laid weight matrices read at an entry).
-/
import proofs.«116603_j10986526343793_2_alg».proof.Proof.KValue
import Idealize.ShloMosaic.Lib.ValueIdx
import Idealize.ShloMosaic.PureOps.Ideal.Laws

noncomputable section

open scoped BigOperators

namespace Cert.Transfer.KEntry

open Cert.ReferenceIdeal.Read Cert.Transfer Cert.Transfer.Rows Idealize.ShloMosaic Idealize.ShloMosaic.ValueIdx
open Cert.KernelIdeal.Weights

variable [Cert.KernelIdeal.Facts₀]

variable (x0 : (⟨Cert.ReferenceIdeal.S131072x256, .f32⟩ : BufTy).Contents (Elt Ideal)) (x1 : (⟨Cert.ReferenceIdeal.S131072, .i32⟩ : BufTy).Contents (Elt Ideal)) (x2 : (⟨Cert.ReferenceIdeal.S2x262144, .i32⟩ : BufTy).Contents (Elt Ideal)) (x3 : (⟨Cert.ReferenceIdeal.S262144, .i32⟩ : BufTy).Contents (Elt Ideal)) (x4 : (⟨Cert.ReferenceIdeal.S2x65536, .i32⟩ : BufTy).Contents (Elt Ideal)) (x5 : (⟨Cert.ReferenceIdeal.S256x768, .f32⟩ : BufTy).Contents (Elt Ideal)) (x6 : (⟨Cert.ReferenceIdeal.S256x512, .f32⟩ : BufTy).Contents (Elt Ideal)) (x7 x8 : (⟨Cert.ReferenceIdeal.S256x256, .f32⟩ : BufTy).Contents (Elt Ideal))

/-- The left half of the projection at row m, column q: the message rows against rows q of the second and third
    256-column blocks of the first weight argument. -/
theorem uv_left (m : Fin 65536) (q : Fin 256) :
    KValue.uv x0 x1 x2 x3 x4 x5 x6 (ix2 m (⟨q.val, by omega⟩ : Fin 512)) =
      ((∑ k : Fin 256, val_main_v13 (F := Ideal) x0 x2 x3 (ix2 m k) * x5 (ix2 q (⟨256 + k.val, by omega⟩ : Fin 768)) : EReal)
        + (∑ k : Fin 256, val_main_v33 (F := Ideal) x0 x1 x4 (ix2 m k) * x5 (ix2 q (⟨512 + k.val, by omega⟩ : Fin 768)) : EReal)) := by
  rw [KValue.uv, proj_apply, projAt, dotAt, dotAt]
  refine congrArg₂ (· + ·) ?_ ?_
  · exact Finset.sum_congr rfl fun k _ => by rw [wmsg_left]
  · exact Finset.sum_congr rfl fun k _ => by rw [wdom_left]

/-- The right half of the projection at row m, column q: the message rows against rows q of the two 256-column blocks
    of the second weight argument. -/
theorem uv_right (m : Fin 65536) (q : Fin 256) :
    KValue.uv x0 x1 x2 x3 x4 x5 x6 (ix2 m (⟨256 + q.val, by omega⟩ : Fin 512)) =
      ((∑ k : Fin 256, val_main_v13 (F := Ideal) x0 x2 x3 (ix2 m k) * x6 (ix2 q (⟨k.val, by omega⟩ : Fin 512)) : EReal)
        + (∑ k : Fin 256, val_main_v33 (F := Ideal) x0 x1 x4 (ix2 m k) * x6 (ix2 q (⟨256 + k.val, by omega⟩ : Fin 512)) : EReal)) := by
  rw [KValue.uv, proj_apply, projAt, dotAt, dotAt]
  refine congrArg₂ (· + ·) ?_ ?_
  · exact Finset.sum_congr rfl fun k _ => by rw [wmsg_right]
  · exact Finset.sum_congr rfl fun k _ => by rw [wdom_right]

/-- The per-atom sum of the gathered left halves at (n, q). -/
theorem y12_entry (n : Fin 131072) (q : Fin 256) :
    KValue.y12 x0 x1 x2 x3 x4 x5 x6 (ix2 n q) =
      ((0 + ∑ e : Fin 262144, if aimsAt x2 n e then
          ((∑ k : Fin 256, val_main_v13 (F := Ideal) x0 x2 x3 (ix2 (msgOf x3 e) k) * x5 (ix2 q (⟨256 + k.val, by omega⟩ : Fin 768)) : EReal)
            + (∑ k : Fin 256, val_main_v33 (F := Ideal) x0 x1 x4 (ix2 (msgOf x3 e) k) * x5 (ix2 q (⟨512 + k.val, by omega⟩ : Fin 768)) : EReal)) else 0 : EReal)) := by
  rw [KValue.y12, Rows.sum_by_atom]
  refine congrArg₂ (· + ·) rfl ?_
  refine Finset.sum_congr rfl fun e _ => ?_
  refine if_congr Iff.rfl ?_ rfl
  rw [Rows.rows_by_msg, uHalf_apply]
  exact uv_left x0 x1 x2 x3 x4 x5 x6 (msgOf x3 e) q

/-- The per-domain sum of the right halves at (d, q). -/
theorem yinvx_entry (d : Fin 16384) (q : Fin 256) :
    KValue.yinvx x0 x1 x2 x3 x4 x5 x6 (ix2 d q) =
      ((0 + ∑ j : Fin 65536, if sentTo x4 d j then
          ((∑ k : Fin 256, val_main_v13 (F := Ideal) x0 x2 x3 (ix2 j k) * x6 (ix2 q (⟨k.val, by omega⟩ : Fin 512)) : EReal)
            + (∑ k : Fin 256, val_main_v33 (F := Ideal) x0 x1 x4 (ix2 j k) * x6 (ix2 q (⟨256 + k.val, by omega⟩ : Fin 512)) : EReal)) else 0 : EReal)) := by
  rw [KValue.yinvx, Rows.sum_by_dom]
  refine congrArg₂ (· + ·) rfl ?_
  refine Finset.sum_congr rfl fun j _ => ?_
  refine if_congr Iff.rfl ?_ rfl
  rw [vHalf_apply]
  exact uv_right x0 x1 x2 x3 x4 x5 x6 j q

/-- THE KERNEL'S RESULT AT (n, q). -/
theorem out_entry (n : Fin 131072) (q : Fin 256) :
    KValue.out x0 x1 x2 x3 x4 x5 x6 x7 x8 (ix2 n q) =
      (((dotAt x0 (val_main_v74 (F := Ideal) x8) n q
          + (∑ k : Fin 256, val_main_v36 (F := Ideal) x0 x2 (ix2 n k) * x5 (ix2 q (⟨k.val, by omega⟩ : Fin 768)) : EReal))
        + ((0 + ∑ e : Fin 262144, if aimsAt x2 n e then
              ((∑ k : Fin 256, val_main_v13 (F := Ideal) x0 x2 x3 (ix2 (msgOf x3 e) k) * x5 (ix2 q (⟨256 + k.val, by omega⟩ : Fin 768)) : EReal)
                + (∑ k : Fin 256, val_main_v33 (F := Ideal) x0 x1 x4 (ix2 (msgOf x3 e) k) * x5 (ix2 q (⟨512 + k.val, by omega⟩ : Fin 768)) : EReal)) else 0)
           + (dotAt (val_main_v24 (F := Ideal) x0 x1) (val_main_v69 (F := Ideal) x7) (domOf x1 n) q
              + (0 + ∑ j : Fin 65536, if sentTo x4 (domOf x1 n) j then
                    ((∑ k : Fin 256, val_main_v13 (F := Ideal) x0 x2 x3 (ix2 j k) * x6 (ix2 q (⟨k.val, by omega⟩ : Fin 512)) : EReal)
                      + (∑ k : Fin 256, val_main_v33 (F := Ideal) x0 x1 x4 (ix2 j k) * x6 (ix2 q (⟨256 + k.val, by omega⟩ : Fin 512)) : EReal)) else 0)))) : EReal) := by
  rw [KValue.out, combine_apply, combineAt]
  refine congrArg₂ (· + ·) (congrArg₂ (· + ·) rfl ?_) ?_
  · rw [dotAt]
    exact Finset.sum_congr rfl fun k _ => by rw [wt0_apply]
  · rw [KValue.gg, addf_apply, Rows.rows_by_dom, y12_entry]
    refine congrArg₂ (· + ·) rfl ?_
    rw [KValue.invm, affine_apply, affineAt, yinvx_entry]

end Cert.Transfer.KEntry

end
-- ==== Proof.Algebra.lean ====
import Mathlib.Data.EReal.Operations
import Mathlib.Algebra.BigOperators.Fin
import Mathlib.Tactic.Abel
import Mathlib.Tactic.Ring

/-!
# Moving a finite real factor across a finite conditional sum, on the extended reals

Multiplication on the extended reals does not distribute over addition in general
(because of the infinities), so every law below that needs distributivity is stated
for real entries coerced to the extended reals: the coercion is pushed outward and the
identity is finished in the real numbers.  Laws that only reorder additions hold in any
additive commutative monoid.
-/

open Finset

namespace Cert.Transfer.Algebra

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional whose branches are a coerced real and zero is the coercion of the
real conditional. -/
theorem coe_ite (c : Prop) [Decidable c] (x : ℝ) :
    (if c then ((x : ℝ) : EReal) else 0) = ((if c then x else 0 : ℝ) : EReal) := by
  split_ifs <;> simp

/-- Over the reals: a factor depending only on the inner index moves across a
conditional sum over the outer index. -/
theorem seg_mul_real {ι κ : Type*} [Fintype ι] [Fintype κ] (p : ι → Prop) [DecidablePred p]
    (a : ι → κ → ℝ) (w : κ → ℝ) :
    ∑ k, (∑ i, if p i then a i k else 0) * w k = ∑ i, if p i then ∑ k, a i k * w k else 0 := by
  simp_rw [Finset.sum_mul, ite_mul, zero_mul]
  rw [Finset.sum_comm]
  refine Finset.sum_congr rfl fun i _ => ?_
  split_ifs <;> simp

/-- Projecting a conditional (segment) sum of real rows by a real weight vector equals the
conditional sum of the projected rows, as an identity on the extended reals. -/
theorem seg_mul {ι κ : Type*} [Fintype ι] [Fintype κ] (p : ι → Prop) [DecidablePred p]
    (a : ι → κ → ℝ) (w : κ → ℝ) :
    ∑ k, (0 + ∑ i, if p i then ((a i k : ℝ) : EReal) else 0) * ((w k : ℝ) : EReal)
      = 0 + ∑ i, if p i then (∑ k, ((a i k : ℝ) : EReal) * ((w k : ℝ) : EReal)) else 0 := by
  simp only [zero_add, coe_ite, ← coe_sum, ← EReal.coe_mul]
  rw [seg_mul_real]

/-- A conditional (segment) sum of a pointwise sum splits into the two conditional sums. -/
theorem seg_add {ι M : Type*} [Fintype ι] [AddCommMonoid M] (p : ι → Prop) [DecidablePred p]
    (f g : ι → M) :
    (0 + ∑ i, if p i then (f i + g i) else 0)
      = (0 + ∑ i, if p i then f i else 0) + (0 + ∑ i, if p i then g i else 0) := by
  simp only [zero_add]
  rw [← Finset.sum_add_distrib]
  refine Finset.sum_congr rfl fun i _ => ?_
  split_ifs <;> simp

/-- The conditional sum of two projected real rows equals the two projections of the
conditional sums of the rows. -/
theorem seg_two {ι κ : Type*} [Fintype ι] [Fintype κ] (p : ι → Prop) [DecidablePred p]
    (a b : ι → κ → ℝ) (w v : κ → ℝ) :
    (0 + ∑ i, if p i then ((∑ k, (a i k : EReal) * (w k : EReal))
        + ∑ k, (b i k : EReal) * (v k : EReal)) else 0)
      = (∑ k, (0 + ∑ i, if p i then (a i k : EReal) else 0) * (w k : EReal))
        + ∑ k, (0 + ∑ i, if p i then (b i k : EReal) else 0) * (v k : EReal) := by
  rw [seg_mul p a w, seg_mul p b v]
  exact seg_add p (fun i => ∑ k, (a i k : EReal) * (w k : EReal))
    (fun i => ∑ k, (b i k : EReal) * (v k : EReal))

/-- A sum over 768 indices is the sum of its three consecutive blocks of 256. -/
theorem sum_three_blocks {M : Type*} [AddCommMonoid M] (f : Fin 768 → M) :
    ∑ j, f j = ∑ k : Fin 256, f ⟨k.val, by omega⟩
      + (∑ k : Fin 256, f ⟨256 + k.val, by omega⟩ + ∑ k : Fin 256, f ⟨512 + k.val, by omega⟩) := by
  have h1 := Fin.sum_univ_add (a := 256) (b := 512) (f := f)
  have h2 := Fin.sum_univ_add (a := 256) (b := 256)
    (f := fun i : Fin (256 + 256) => f (Fin.natAdd 256 i))
  rw [h1, h2]
  refine congrArg₂ (· + ·) rfl (congrArg₂ (· + ·) rfl ?_)
  refine Finset.sum_congr rfl fun k _ => congrArg f ?_
  ext
  simp [Fin.natAdd]
  omega

/-- A sum over 512 indices is the sum of its two consecutive blocks of 256. -/
theorem sum_two_blocks {M : Type*} [AddCommMonoid M] (f : Fin 512 → M) :
    ∑ j, f j = ∑ k : Fin 256, f ⟨k.val, by omega⟩ + ∑ k : Fin 256, f ⟨256 + k.val, by omega⟩ :=
  Fin.sum_univ_add (a := 256) (b := 256) (f := f)

/-- The bridge between projecting before the two segment sums and projecting after them:
the conditional sums of the projected rows are replaced by the projections of the
conditional sums, and the summands are regrouped. -/
theorem bridge {ιE ιM : Type*} [Fintype ιE] [Fintype ιM]
    (P : ιE → Prop) (Q : ιM → Prop) [DecidablePred P] [DecidablePred Q] (γ : ιE → ιM)
    (msg dom : ιM → Fin 256 → ℝ) (w1 w2 w3 w4 : Fin 256 → ℝ) (A B0 C : EReal) :
    (A + B0)
      + ((0 + ∑ e, if P e then ((∑ k, (msg (γ e) k : EReal) * (w1 k : EReal))
              + ∑ k, (dom (γ e) k : EReal) * (w2 k : EReal)) else 0)
        + (C + (0 + ∑ m, if Q m then ((∑ k, (msg m k : EReal) * (w3 k : EReal))
              + ∑ k, (dom m k : EReal) * (w4 k : EReal)) else 0)))
      = (A + (B0
            + ((∑ k, (0 + ∑ e, if P e then (msg (γ e) k : EReal) else 0) * (w1 k : EReal))
              + ∑ k, (0 + ∑ e, if P e then (dom (γ e) k : EReal) else 0) * (w2 k : EReal))))
        + (C
            + ((∑ k, (0 + ∑ m, if Q m then (msg m k : EReal) else 0) * (w3 k : EReal))
              + ∑ k, (0 + ∑ m, if Q m then (dom m k : EReal) else 0) * (w4 k : EReal))) := by
  rw [seg_two P (fun e k => msg (γ e) k) (fun e k => dom (γ e) k) w1 w2,
    seg_two Q msg dom w3 w4]
  abel

end Cert.Transfer.Algebra
-- ==== Proof.RefEntry.lean ====
import proofs.«116603_j10986526343793_2_alg».proof.Proof.Gen.ReferenceIdeal.Read
import proofs.«116603_j10986526343793_2_alg».proof.Proof.Spec
import proofs.«116603_j10986526343793_2_alg».proof.Proof.Rows
import proofs.«116603_j10986526343793_2_alg».proof.Proof.Algebra
import Idealize.ShloMosaic.Lib.Pipeline.Value
import Idealize.ShloMosaic.Lib.ValueIdx
import Idealize.ShloMosaic.PureOps.Ideal.Laws

/-!
# The reference's result at one entry

The reference sums the gathered rows per atom and per domain first and projects afterwards. Read at
entry (n, q) its result is a sum of seven terms: the atom's row times column q of the transposed self
weights; for each of the three 256-column blocks of the first wide weight matrix, the sum over k of a
per-atom array at (n, k) — the atom's own segment sum, the sum over the edges aimed at n of the
message row of the edge's message, the same sum of the domain-message row — times the weight at
(q, block offset + k); and, at the row of the atom's domain d, the domain's row times column q of the
transposed domain weights and, for each of the two blocks of the second wide weight matrix, the sum
over k of the sum over the messages aimed at d of a row entry times the weight at (q, offset + k).
A matrix product over 768 (512) columns is split into its blocks of 256; a joined array read at
column offset + k is the block's array at column k.
-/

noncomputable section

open scoped BigOperators

namespace Cert.Transfer.RefEntry

open Cert.ReferenceIdeal Cert.ReferenceIdeal.Gen Cert.ReferenceIdeal.Read Cert.Transfer Cert.Transfer.Rows
open Idealize.ShloMosaic Idealize.ShloMosaic.ValueIdx

variable (x0 : (⟨S131072x256, .f32⟩ : BufTy).Contents (Elt Ideal)) (x1 : (⟨S131072, .i32⟩ : BufTy).Contents (Elt Ideal))
  (x2 : (⟨S2x262144, .i32⟩ : BufTy).Contents (Elt Ideal)) (x3 : (⟨S262144, .i32⟩ : BufTy).Contents (Elt Ideal))
  (x4 : (⟨S2x65536, .i32⟩ : BufTy).Contents (Elt Ideal)) (x5 : (⟨S256x768, .f32⟩ : BufTy).Contents (Elt Ideal))
  (x6 : (⟨S256x512, .f32⟩ : BufTy).Contents (Elt Ideal)) (x7 x8 : (⟨S256x256, .f32⟩ : BufTy).Contents (Elt Ideal))

/-! ## Arrays the reference writes twice

The second zero accumulator per atom, the second copy of the edges' target atoms, the second copy of
the edges' message numbers, the second zero accumulator per domain and the second copy of the
messages' target domains are the same arrays as the first ones. -/

theorem v54_eq : val_main_v54 (F := Ideal) = val_main_v44 (F := Ideal) := rfl
theorem v55_eq : val_main_v55 (F := Ideal) x2 = val_main_v45 (F := Ideal) x2 := rfl
theorem v52_eq : val_main_v52 (F := Ideal) x3 = val_main_v42 (F := Ideal) x3 := rfl
theorem v65_eq : val_main_v65 (F := Ideal) = val_main_v60 (F := Ideal) := rfl
theorem v66_eq : val_main_v66 (F := Ideal) x4 = val_main_v61 (F := Ideal) x4 := rfl

/-! ## The two plain matrix products -/

/-- Entry (n, q) of the product of the atom rows with the transposed self weights. -/
theorem dot75 (n : Fin 131072) (q : Fin 256) :
    val_main_v75 (F := Ideal) x0 x8 (ix2 n q) = dotAt x0 (val_main_v74 (F := Ideal) x8) n q := by
  rw [val_main_v75_apply]
  unfold dotAt
  refine Finset.sum_congr rfl fun k _ => ?_
  have el : lidx_main_v75 (ix2 n q) k = ix2 n k := funext fun a => Fin.ext (by match a with | ⟨0, _⟩ => rfl | ⟨1, _⟩ => rfl)
  have er : ridx_main_v75 (ix2 n q) k = ix2 k q := funext fun a => Fin.ext (by match a with | ⟨0, _⟩ => rfl | ⟨1, _⟩ => rfl)
  rw [el, er]

/-- Entry (d, q) of the product of the domain rows with the transposed domain weights. -/
theorem dot70 (d : Fin 16384) (q : Fin 256) :
    val_main_v70 (F := Ideal) x0 x1 x7 (ix2 d q)
      = dotAt (val_main_v24 (F := Ideal) x0 x1) (val_main_v69 (F := Ideal) x7) d q := by
  rw [val_main_v70_apply]
  unfold dotAt
  refine Finset.sum_congr rfl fun k _ => ?_
  have el : lidx_main_v70 (ix2 d q) k = ix2 d k := funext fun a => Fin.ext (by match a with | ⟨0, _⟩ => rfl | ⟨1, _⟩ => rfl)
  have er : ridx_main_v70 (ix2 d q) k = ix2 k q := funext fun a => Fin.ext (by match a with | ⟨0, _⟩ => rfl | ⟨1, _⟩ => rfl)
  rw [el, er]

/-! ## The segment sums at an entry -/

/-- The per-atom sum of the gathered message rows, at (n, k). -/
theorem v46_entry (n : Fin 131072) (k : Fin 256) :
    val_main_v46 (F := Ideal) x0 x2 x3 (ix2 n k)
      = ((0 + ∑ e : Fin 262144, if aimsAt x2 n e then (val_main_v13 (F := Ideal) x0 x2 x3 (ix2 (msgOf x3 e) k) : EReal) else 0 : EReal)) := by
  unfold val_main_v46
  rw [sum_by_atom]
  unfold val_main_v43
  refine congrArg (0 + ·) (Finset.sum_congr rfl fun e _ => ?_)
  rw [rows_by_msg]

/-- The per-atom sum of the gathered domain-message rows, at (n, k). -/
theorem v56_entry (n : Fin 131072) (k : Fin 256) :
    val_main_v56 (F := Ideal) x0 x1 x2 x3 x4 (ix2 n k)
      = ((0 + ∑ e : Fin 262144, if aimsAt x2 n e then (val_main_v33 (F := Ideal) x0 x1 x4 (ix2 (msgOf x3 e) k) : EReal) else 0 : EReal)) := by
  unfold val_main_v56
  rw [v54_eq, v55_eq, sum_by_atom]
  unfold val_main_v53
  refine congrArg (0 + ·) (Finset.sum_congr rfl fun e _ => ?_)
  rw [v52_eq, rows_by_msg]

/-- The per-domain sum of the message rows, at (d, k). -/
theorem v62_entry (d : Fin 16384) (k : Fin 256) :
    val_main_v62 (F := Ideal) x0 x2 x3 x4 (ix2 d k)
      = ((0 + ∑ j : Fin 65536, if sentTo x4 d j then (val_main_v13 (F := Ideal) x0 x2 x3 (ix2 j k) : EReal) else 0 : EReal)) := by
  unfold val_main_v62
  rw [sum_by_dom]

/-- The per-domain sum of the domain-message rows, at (d, k). -/
theorem v67_entry (d : Fin 16384) (k : Fin 256) :
    val_main_v67 (F := Ideal) x0 x1 x4 (ix2 d k)
      = ((0 + ∑ j : Fin 65536, if sentTo x4 d j then (val_main_v33 (F := Ideal) x0 x1 x4 (ix2 j k) : EReal) else 0 : EReal)) := by
  unfold val_main_v67
  rw [v65_eq, v66_eq, sum_by_dom]

/-! ## The joined arrays at a column of each block -/

/-- Three 256-column blocks joined along the columns, read at a column of the first block. -/
theorem cat3_0 (a b c : (⟨S131072x256, .f32⟩ : BufTy).Contents (Elt Ideal)) (n : Fin 131072) (k : Fin 256) :
    concatenate S131072x768 1 [⟨S131072x256, a⟩, ⟨S131072x256, b⟩, ⟨S131072x256, c⟩]
      concatenates_S131072x256_S131072x256_S131072x256_S131072x768_d1 (ix2 n (⟨k.val, by omega⟩ : Fin 768)) = a (ix2 n k) :=
  concatenate_apply_piece 1 [⟨S131072x256, a⟩, ⟨S131072x256, b⟩, ⟨S131072x256, c⟩]
    concatenates_S131072x256_S131072x256_S131072x256_S131072x768_d1
    (ix2 n (⟨k.val, by omega⟩ : Fin 768)) 0 (by show 0 < 3; omega) S131072x256 a rfl rfl 0 rfl (ix2 n k)
    (fun d => match d with
      | ⟨0, _⟩ => fun _ => rfl
      | ⟨1, _⟩ => fun h => absurd (Fin.ext rfl) h)
    (by show 0 + k.val = k.val; omega)

/-- Three 256-column blocks joined along the columns, read at a column of the second block. -/
theorem cat3_1 (a b c : (⟨S131072x256, .f32⟩ : BufTy).Contents (Elt Ideal)) (n : Fin 131072) (k : Fin 256) :
    concatenate S131072x768 1 [⟨S131072x256, a⟩, ⟨S131072x256, b⟩, ⟨S131072x256, c⟩]
      concatenates_S131072x256_S131072x256_S131072x256_S131072x768_d1 (ix2 n (⟨256 + k.val, by omega⟩ : Fin 768)) = b (ix2 n k) :=
  concatenate_apply_piece 1 [⟨S131072x256, a⟩, ⟨S131072x256, b⟩, ⟨S131072x256, c⟩]
    concatenates_S131072x256_S131072x256_S131072x256_S131072x768_d1
    (ix2 n (⟨256 + k.val, by omega⟩ : Fin 768)) 1 (by show 1 < 3; omega) S131072x256 b rfl rfl 256 rfl (ix2 n k)
    (fun d => match d with
      | ⟨0, _⟩ => fun _ => rfl
      | ⟨1, _⟩ => fun h => absurd (Fin.ext rfl) h)
    (by show 256 + k.val = 256 + k.val; omega)

/-- Three 256-column blocks joined along the columns, read at a column of the third block. -/
theorem cat3_2 (a b c : (⟨S131072x256, .f32⟩ : BufTy).Contents (Elt Ideal)) (n : Fin 131072) (k : Fin 256) :
    concatenate S131072x768 1 [⟨S131072x256, a⟩, ⟨S131072x256, b⟩, ⟨S131072x256, c⟩]
      concatenates_S131072x256_S131072x256_S131072x256_S131072x768_d1 (ix2 n (⟨512 + k.val, by omega⟩ : Fin 768)) = c (ix2 n k) :=
  concatenate_apply_piece 1 [⟨S131072x256, a⟩, ⟨S131072x256, b⟩, ⟨S131072x256, c⟩]
    concatenates_S131072x256_S131072x256_S131072x256_S131072x768_d1
    (ix2 n (⟨512 + k.val, by omega⟩ : Fin 768)) 2 (by show 2 < 3; omega) S131072x256 c rfl rfl 512 rfl (ix2 n k)
    (fun d => match d with
      | ⟨0, _⟩ => fun _ => rfl
      | ⟨1, _⟩ => fun h => absurd (Fin.ext rfl) h)
    (by show 512 + k.val = 512 + k.val; omega)

/-- The three-block array at a column of the first block: the atoms' own segment sum. -/
theorem v57_0 (n : Fin 131072) (k : Fin 256) :
    val_main_v57 (F := Ideal) x0 x1 x2 x3 x4 (ix2 n (⟨k.val, by omega⟩ : Fin 768)) = val_main_v36 (F := Ideal) x0 x2 (ix2 n k) := by
  unfold val_main_v57
  exact cat3_0 _ _ _ n k

/-- The three-block array at a column of the second block. -/
theorem v57_1 (n : Fin 131072) (k : Fin 256) :
    val_main_v57 (F := Ideal) x0 x1 x2 x3 x4 (ix2 n (⟨256 + k.val, by omega⟩ : Fin 768)) = val_main_v46 (F := Ideal) x0 x2 x3 (ix2 n k) := by
  unfold val_main_v57
  exact cat3_1 _ _ _ n k

/-- The three-block array at a column of the third block. -/
theorem v57_2 (n : Fin 131072) (k : Fin 256) :
    val_main_v57 (F := Ideal) x0 x1 x2 x3 x4 (ix2 n (⟨512 + k.val, by omega⟩ : Fin 768)) = val_main_v56 (F := Ideal) x0 x1 x2 x3 x4 (ix2 n k) := by
  unfold val_main_v57
  exact cat3_2 _ _ _ n k

/-- The two-block array at a column of the first block. -/
theorem v68_0 (d : Fin 16384) (k : Fin 256) :
    val_main_v68 (F := Ideal) x0 x1 x2 x3 x4 (ix2 d (⟨k.val, by omega⟩ : Fin 512)) = val_main_v62 (F := Ideal) x0 x2 x3 x4 (ix2 d k) := by
  unfold val_main_v68
  exact concatenate_pair_apply_left 1 _ _ concatenates_S16384x256_S16384x256_S16384x512_d1
    (ix2 d (⟨k.val, by omega⟩ : Fin 512)) rfl (ix2 d k) (fun c => match c with
      | ⟨0, _⟩ => rfl
      | ⟨1, _⟩ => rfl)

/-- The two-block array at a column of the second block. -/
theorem v68_1 (d : Fin 16384) (k : Fin 256) :
    val_main_v68 (F := Ideal) x0 x1 x2 x3 x4 (ix2 d (⟨256 + k.val, by omega⟩ : Fin 512)) = val_main_v67 (F := Ideal) x0 x1 x4 (ix2 d k) := by
  unfold val_main_v68
  exact concatenate_pair_apply_right 1 _ _ concatenates_S16384x256_S16384x256_S16384x512_d1
    (ix2 d (⟨256 + k.val, by omega⟩ : Fin 512)) rfl rfl (ix2 d k) (fun c => match c with
      | ⟨0, _⟩ => fun _ => rfl
      | ⟨1, _⟩ => fun h => absurd (Fin.ext rfl) h)
    (by show k.val + 256 = 256 + k.val; omega)

/-! ## The two wide matrix products, block by block -/

/-- Entry (n, q) of the product of the three-block array with the transposed wide weights. -/
theorem v77_entry (n : Fin 131072) (q : Fin 256) :
    val_main_v77 (F := Ideal) x0 x1 x2 x3 x4 x5 (ix2 n q)
      = ((∑ k : Fin 256, val_main_v36 (F := Ideal) x0 x2 (ix2 n k) * x5 (ix2 q (⟨k.val, by omega⟩ : Fin 768)))
          + ((∑ k : Fin 256, (0 + ∑ e : Fin 262144, if aimsAt x2 n e then (val_main_v13 (F := Ideal) x0 x2 x3 (ix2 (msgOf x3 e) k) : EReal) else 0) * x5 (ix2 q (⟨256 + k.val, by omega⟩ : Fin 768)))
            + ∑ k : Fin 256, (0 + ∑ e : Fin 262144, if aimsAt x2 n e then (val_main_v33 (F := Ideal) x0 x1 x4 (ix2 (msgOf x3 e) k) : EReal) else 0) * x5 (ix2 q (⟨512 + k.val, by omega⟩ : Fin 768))) : EReal) := by
  have hl : ∀ kk : Fin 768, lidx_main_v77 (ix2 n q) kk = ix2 n kk := fun kk =>
    funext fun a => Fin.ext (by match a with | ⟨0, _⟩ => rfl | ⟨1, _⟩ => rfl)
  have hr : ∀ kk : Fin 768, val_main_v76 (F := Ideal) x5 (ridx_main_v77 (ix2 n q) kk) = x5 (ix2 q kk) := fun kk => by
    rw [val_main_v76_apply]
    exact congrArg x5 (funext fun a => Fin.ext (by match a with | ⟨0, _⟩ => rfl | ⟨1, _⟩ => rfl))
  rw [val_main_v77_apply, Algebra.sum_three_blocks]
  simp only [hl, hr, v57_0, v57_1, v57_2, v46_entry, v56_entry]

/-- Entry (d, q) of the product of the two-block array with the transposed wide weights. -/
theorem v72_entry (d : Fin 16384) (q : Fin 256) :
    val_main_v72 (F := Ideal) x0 x1 x2 x3 x4 x6 (ix2 d q)
      = ((∑ k : Fin 256, (0 + ∑ j : Fin 65536, if sentTo x4 d j then (val_main_v13 (F := Ideal) x0 x2 x3 (ix2 j k) : EReal) else 0) * x6 (ix2 q (⟨k.val, by omega⟩ : Fin 512)))
          + ∑ k : Fin 256, (0 + ∑ j : Fin 65536, if sentTo x4 d j then (val_main_v33 (F := Ideal) x0 x1 x4 (ix2 j k) : EReal) else 0) * x6 (ix2 q (⟨256 + k.val, by omega⟩ : Fin 512)) : EReal) := by
  have hl : ∀ kk : Fin 512, lidx_main_v72 (ix2 d q) kk = ix2 d kk := fun kk =>
    funext fun a => Fin.ext (by match a with | ⟨0, _⟩ => rfl | ⟨1, _⟩ => rfl)
  have hr : ∀ kk : Fin 512, val_main_v71 (F := Ideal) x6 (ridx_main_v72 (ix2 d q) kk) = x6 (ix2 q kk) := fun kk => by
    rw [val_main_v71_apply]
    exact congrArg x6 (funext fun a => Fin.ext (by match a with | ⟨0, _⟩ => rfl | ⟨1, _⟩ => rfl))
  rw [val_main_v72_apply, Algebra.sum_two_blocks]
  simp only [hl, hr, v68_0, v68_1, v62_entry, v67_entry]

/-! ## The reference's result at an entry -/

/-- Entry (d, q) of the per-domain array: the domain product plus the two projected domain sums. -/
theorem v73_entry (d : Fin 16384) (q : Fin 256) :
    val_main_v73 (F := Ideal) x0 x1 x2 x3 x4 x6 x7 (ix2 d q)
      = (dotAt (val_main_v24 (F := Ideal) x0 x1) (val_main_v69 (F := Ideal) x7) d q
          + ((∑ k : Fin 256, (0 + ∑ j : Fin 65536, if sentTo x4 d j then (val_main_v13 (F := Ideal) x0 x2 x3 (ix2 j k) : EReal) else 0) * x6 (ix2 q (⟨k.val, by omega⟩ : Fin 512)))
            + ∑ k : Fin 256, (0 + ∑ j : Fin 65536, if sentTo x4 d j then (val_main_v33 (F := Ideal) x0 x1 x4 (ix2 j k) : EReal) else 0) * x6 (ix2 q (⟨256 + k.val, by omega⟩ : Fin 512))) : EReal) := by
  rw [val_main_v73_apply, Ideal.addf_def, dot70, v72_entry]

/-- Entry (n, q) of the per-atom array: the self product plus the three projected blocks. -/
theorem v78_entry (n : Fin 131072) (q : Fin 256) :
    val_main_v78 (F := Ideal) x0 x1 x2 x3 x4 x5 x8 (ix2 n q)
      = (dotAt x0 (val_main_v74 (F := Ideal) x8) n q
          + ((∑ k : Fin 256, val_main_v36 (F := Ideal) x0 x2 (ix2 n k) * x5 (ix2 q (⟨k.val, by omega⟩ : Fin 768)))
            + ((∑ k : Fin 256, (0 + ∑ e : Fin 262144, if aimsAt x2 n e then (val_main_v13 (F := Ideal) x0 x2 x3 (ix2 (msgOf x3 e) k) : EReal) else 0) * x5 (ix2 q (⟨256 + k.val, by omega⟩ : Fin 768)))
              + ∑ k : Fin 256, (0 + ∑ e : Fin 262144, if aimsAt x2 n e then (val_main_v33 (F := Ideal) x0 x1 x4 (ix2 (msgOf x3 e) k) : EReal) else 0) * x5 (ix2 q (⟨512 + k.val, by omega⟩ : Fin 768)))) : EReal) := by
  rw [val_main_v78_apply, Ideal.addf_def, dot75, v77_entry]

/-- The per-domain array gathered along the atoms, at (n, q): its row "the domain of atom n". -/
theorem v85_entry (n : Fin 131072) (q : Fin 256) :
    val_main_v85 (F := Ideal) x0 x1 x2 x3 x4 x6 x7 (ix2 n q)
      = val_main_v73 (F := Ideal) x0 x1 x2 x3 x4 x6 x7 (ix2 (domOf x1 n) q) := by
  unfold val_main_v85
  rw [rows_by_dom]

/-- **The reference's result at entry (n, q)**: the atom's self product, its own segment sum and the
two per-atom sums of gathered rows each projected by a block of the first wide weight matrix, plus —
read at the atom's domain — the domain product and the two per-domain sums each projected by a block
of the second wide weight matrix. -/
theorem ref_entry (n : Fin 131072) (q : Fin 256) :
    val_main_v86 (F := Ideal) x0 x1 x2 x3 x4 x5 x6 x7 x8 (ix2 n q) =
      ((dotAt x0 (val_main_v74 (F := Ideal) x8) n q
          + ((∑ k : Fin 256, val_main_v36 (F := Ideal) x0 x2 (ix2 n k) * x5 (ix2 q (⟨k.val, by omega⟩ : Fin 768)))
            + ((∑ k : Fin 256, (0 + ∑ e : Fin 262144, if aimsAt x2 n e then (val_main_v13 (F := Ideal) x0 x2 x3 (ix2 (msgOf x3 e) k) : EReal) else 0) * x5 (ix2 q (⟨256 + k.val, by omega⟩ : Fin 768)))
              + ∑ k : Fin 256, (0 + ∑ e : Fin 262144, if aimsAt x2 n e then (val_main_v33 (F := Ideal) x0 x1 x4 (ix2 (msgOf x3 e) k) : EReal) else 0) * x5 (ix2 q (⟨512 + k.val, by omega⟩ : Fin 768)))))
        + (dotAt (val_main_v24 (F := Ideal) x0 x1) (val_main_v69 (F := Ideal) x7) (domOf x1 n) q
          + ((∑ k : Fin 256, (0 + ∑ j : Fin 65536, if sentTo x4 (domOf x1 n) j then (val_main_v13 (F := Ideal) x0 x2 x3 (ix2 j k) : EReal) else 0) * x6 (ix2 q (⟨k.val, by omega⟩ : Fin 512)))
            + ∑ k : Fin 256, (0 + ∑ j : Fin 65536, if sentTo x4 (domOf x1 n) j then (val_main_v33 (F := Ideal) x0 x1 x4 (ix2 j k) : EReal) else 0) * x6 (ix2 q (⟨256 + k.val, by omega⟩ : Fin 512)))) : EReal) := by
  rw [val_main_v86_apply, Ideal.addf_def, v78_entry, v85_entry, v73_entry]

end Cert.Transfer.RefEntry

end
-- ==== Proof.Bridge.lean ====
/-
  The two programs compute one function.

  At an entry (n, q) the kernel's result is
      (x·W8ᵀ + y0·Wt0)[n,q] + ( Σ_{e → n} (msg[e]·Wt1 + dom[e]·Wt2)[q] + ( (xinv·W7ᵀ)[d,q] + Σ_{j → d} (msg[j]·Wi0 + dom[j]·Wi1)[q] ) )
  (d the domain of atom n; e → n the edges aimed at n, read at their message; j → d the messages aimed at d), and the
  reference's is
      (x·W8ᵀ)[n,q] + ( y0·Wt0 + (Σ_{e → n} msg[e])·Wt1 + (Σ_{e → n} dom[e])·Wt2 )[n,q] + ( (xinv·W7ᵀ)[d,q] + (Σ_{j → d} msg[j])·Wi0 + (Σ_{j → d} dom[j])·Wi1 ).
  They agree because a real weight moves across a finite conditional sum of real rows; msg, dom and the two weight
  matrices are arrays of reals whenever the inputs are finite. The other terms are common to both sides.
-/
import proofs.«116603_j10986526343793_2_alg».proof.Proof.KEntry
import proofs.«116603_j10986526343793_2_alg».proof.Proof.RefEntry
import proofs.«116603_j10986526343793_2_alg».proof.Proof.Algebra

noncomputable section

open scoped BigOperators

namespace Cert.Transfer.Bridge

open Cert.Transfer Cert.Transfer.Rows Cert.ReferenceIdeal.Read Idealize.ShloMosaic Idealize.ShloMosaic.ValueIdx

variable [Cert.KernelIdeal.Facts₀]

/-- With real messages, real domain messages and real transfer weights, the kernel's function of the arguments is
    the reference's. -/
theorem out_eq_ref (x0 : (⟨Cert.ReferenceIdeal.S131072x256, .f32⟩ : BufTy).Contents (Elt Ideal)) (x1 : (⟨Cert.ReferenceIdeal.S131072, .i32⟩ : BufTy).Contents (Elt Ideal)) (x2 : (⟨Cert.ReferenceIdeal.S2x262144, .i32⟩ : BufTy).Contents (Elt Ideal)) (x3 : (⟨Cert.ReferenceIdeal.S262144, .i32⟩ : BufTy).Contents (Elt Ideal)) (x4 : (⟨Cert.ReferenceIdeal.S2x65536, .i32⟩ : BufTy).Contents (Elt Ideal)) (x5 : (⟨Cert.ReferenceIdeal.S256x768, .f32⟩ : BufTy).Contents (Elt Ideal)) (x6 : (⟨Cert.ReferenceIdeal.S256x512, .f32⟩ : BufTy).Contents (Elt Ideal)) (x7 x8 : (⟨Cert.ReferenceIdeal.S256x256, .f32⟩ : BufTy).Contents (Elt Ideal))
    (hmsg : ∀ i, ∃ r : ℝ, val_main_v13 (F := Ideal) x0 x2 x3 i = (r : EReal))
    (hdom : ∀ i, ∃ r : ℝ, val_main_v33 (F := Ideal) x0 x1 x4 i = (r : EReal))
    (h5 : ∀ i, ∃ r : ℝ, x5 i = (r : EReal)) (h6 : ∀ i, ∃ r : ℝ, x6 i = (r : EReal)) :
    KValue.out x0 x1 x2 x3 x4 x5 x6 x7 x8 = val_main_v86 (F := Ideal) x0 x1 x2 x3 x4 x5 x6 x7 x8 := by
  funext i
  obtain ⟨n, q, rfl⟩ : ∃ (n : Fin 131072) (q : Fin 256), i = ix2 n q := ⟨i 0, i 1, eq_ix2 i⟩
  rw [KEntry.out_entry, RefEntry.ref_entry]
  choose msgR hmsgR using hmsg
  choose domR hdomR using hdom
  choose w5 hw5 using h5
  choose w6 hw6 using h6
  have key := Algebra.bridge (aimsAt x2 n) (sentTo x4 (domOf x1 n)) (msgOf x3)
    (fun j k => msgR (ix2 j k)) (fun j k => domR (ix2 j k))
    (fun k => w5 (ix2 q (⟨256 + k.val, by omega⟩ : Fin 768))) (fun k => w5 (ix2 q (⟨512 + k.val, by omega⟩ : Fin 768)))
    (fun k => w6 (ix2 q (⟨k.val, by omega⟩ : Fin 512))) (fun k => w6 (ix2 q (⟨256 + k.val, by omega⟩ : Fin 512)))
    (dotAt x0 (val_main_v74 (F := Ideal) x8) n q)
    (∑ k : Fin 256, val_main_v36 (F := Ideal) x0 x2 (ix2 n k) * x5 (ix2 q (⟨k.val, by omega⟩ : Fin 768)))
    (dotAt (val_main_v24 (F := Ideal) x0 x1) (val_main_v69 (F := Ideal) x7) (domOf x1 n) q)
  simp only [← hmsgR, ← hdomR, ← hw5, ← hw6] at key
  exact key

end Cert.Transfer.Bridge

end
-- ==== Proof.Finite.lean ====
/-
  From "every float input is finite" to "every entry is a real number".

  The precondition is the conjunction of five statements "all of |x| < +inf", one per float argument.  On the extended
  reals |x| is max x (-x) and +inf is the top element, so |x| < +inf says that x is neither infinity: x is a real.
  A conjunction of one-bit words that is 1 has both conjuncts 1, and an "all" that is 1 has a 1 at every index; so the
  precondition gives, entry by entry, a real number for each of the arguments x0, x5 and x6 (x7 and x8 are not needed here).
-/
import proofs.«116603_j10986526343793_2_alg».proof.Pre_finite_inputs
import Idealize.ShloMosaic.Lib.ReduceAll
import Idealize.ShloMosaic.Lib.ValueIdx
import Idealize.ShloMosaic.PureOps.Ideal

noncomputable section

namespace Cert.Transfer.Finite

open Idealize.ShloMosaic Cert.Pre_finite_inputs

/-- The scalar shape has one index. -/
instance subsingleton_scalar_idx : Subsingleton S_.Idx := ⟨fun a b => funext fun d => d.elim0⟩

/-- On one value: |x| < +inf says that x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One "all of |x| < +inf" that came out 1: every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := fun i =>
  real_of_abs_lt_inf (x i) (Host.reduce_andi_all _ _ hr hu j h i)

variable [Cert.Pre_finite_inputs.Facts]

/-- THE PRECONDITION DECODED: the entries of the arguments x0, x5 and x6 are real numbers. -/
theorem real_of_fn (x0 : FVec Ideal S131072x256 .f32) (x1 : IVec S131072 32) (x2 : IVec S2x262144 32)
    (x3 : IVec S262144 32) (x4 : IVec S2x65536 32) (x5 : FVec Ideal S256x768 .f32) (x6 : FVec Ideal S256x512 .f32)
    (x7 : FVec Ideal S256x256 .f32) (x8 : FVec Ideal S256x256 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x5 i = (r : EReal)) ∧ (∀ i, ∃ r : ℝ, x6 i = (r : EReal)) := by
  have e := congrFun h ValueIdx.ix0
  dsimp only [Cert.Pre_finite_inputs.fn, Cert.Pre_finite_inputs.fn_part1, andi] at e
  obtain ⟨⟨⟨⟨e0, e5⟩, e6⟩, -⟩, -⟩ := by
    simpa only [IntOp.andi_eq_one] using e
  exact ⟨real_of_all x0 _ _ _ _ e0, real_of_all x5 _ _ _ _ e5, real_of_all x6 _ _ _ _ e6⟩

end Cert.Transfer.Finite

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.RealRows.lean ====
/-
  Two intermediate arrays of the reference are arrays of real numbers when the node features x0 are.

  The message array is a row segment-sum of gathered rows of x0: a gathered row of reals is a row of reals, and an entry
  of the segment sum is the zero it starts from plus a finite sum of terms each of which is an entry of a gathered row or
  zero; a finite sum of reals is a real.  The per-domain mean is a row segment-sum of x0 divided by max(count, 1): the
  divisor is at least one, hence not zero, so the quotient is the product with the divisor's inverse; the inverse of any
  extended real is a real, and a product of two reals is a real.  The gathered rows of that mean are then real too.
-/
import proofs.«116603_j10986526343793_2_alg».proof.Proof.Gen.ReferenceIdeal.Read
import proofs.«116603_j10986526343793_2_alg».proof.Proof.LibScatterRows
import proofs.«116603_j10986526343793_2_alg».proof.Proof.LibSegments
import proofs.«116603_j10986526343793_2_alg».proof.Proof.LibRealSums
import Idealize.ShloMosaic.Lib.IdealHost

noncomputable section

open scoped BigOperators

namespace Cert.Transfer.Finite

open Idealize.ShloMosaic Idealize.ShloMosaic.ValueIdx Cert.Lib.RealSums

/-! ## General: row gathers, row segment-sums and quotients of reals -/

/-- "Is a real" in its two spellings. -/
theorem fin'_of_exists {x : EReal} (h : ∃ r : ℝ, x = (r : EReal)) : Fin' x := by
  obtain ⟨r, rfl⟩ := h; exact fin'_coe r

/-- A product of two reals is a real. -/
theorem fin'_mul {x y : EReal} (hx : Fin' x) (hy : Fin' y) : Fin' (x * y) := by
  obtain ⟨a, rfl⟩ := hx.exists_real
  obtain ⟨b, rfl⟩ := hy.exists_real
  rw [← EReal.coe_mul]; exact fin'_coe _

/-- A real divided by an extended real that is at least one is a real. -/
theorem fin'_div {x y : EReal} (hx : Fin' x) (hy : (1 : EReal) ≤ y) : Fin' (Ideal.div x y) := by
  have hy0 : y ≠ 0 := fun h => by
    rw [h] at hy
    exact absurd hy (not_le.mpr zero_lt_one)
  rw [Ideal.div, if_neg hy0]
  exact fin'_mul hx (fin'_inv y)

/-- A row gather from an array of reals is an array of reals. -/
theorem gather_rows_real {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → EReal) (idx : IVec ⟨2, ![E, 1]⟩ w) (hx : ∀ i, Fin' (x i)) :
    ∀ i, Fin' (Host.gather D x idx i) := by
  intro i
  obtain ⟨e, o, rfl⟩ : ∃ (e : Fin E) (o : Fin C), i = ix2 e o := ⟨i 0, i 1, eq_ix2 i⟩
  rw [Segments.gather_rows_apply_of_dims hN D h1 h2 h3 h4 h5 h6 h7 x idx e o]
  exact hx _

/-- A row segment-sum of an array of reals into an array of reals is an array of reals. -/
theorem scatter_rows_real {N E C w : Nat} (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (hx : ∀ i, Fin' (x i)) (hu : ∀ i, Fin' (u i)) :
    ∀ i, Fin' (Host.scatterAdd (F := Ideal) (φ := .f32) D x idx u i) := by
  intro i
  obtain ⟨n, o, rfl⟩ : ∃ (n : Fin N) (o : Fin C), i = ix2 n o := ⟨i 0, i 1, eq_ix2 i⟩
  rw [ScatterRows.scatterAdd_rows2_apply_of_dims D h1 h2 h3 h4 x idx u n o]
  refine fin'_add (hx _) (fin'_sum _ _ fun e => ?_)
  split_ifs
  · exact hu _
  · exact fin'_zero

/-! ## The reference's arrays -/

open Cert.ReferenceIdeal Cert.ReferenceIdeal.Read

/-- The gathered source rows of x0 are real. -/
theorem src_rows_real (x0 : (⟨S131072x256, .f32⟩ : BufTy).Contents (Elt Ideal)) (x2 : (⟨S2x262144, .i32⟩ : BufTy).Contents (Elt Ideal))
    (hx : ∀ i, ∃ r : ℝ, x0 i = (r : EReal)) : ∀ i, Fin' (val_main_v10 (F := Ideal) x0 x2 i) := by
  unfold val_main_v10
  exact gather_rows_real (by decide) _ rfl rfl rfl rfl rfl rfl rfl x0 _ fun i => fin'_of_exists (hx i)

/-- The message array (the segment sum of the gathered rows) is real. -/
theorem msg_real (x0 : (⟨S131072x256, .f32⟩ : BufTy).Contents (Elt Ideal)) (x2 : (⟨S2x262144, .i32⟩ : BufTy).Contents (Elt Ideal))
    (x3 : (⟨S262144, .i32⟩ : BufTy).Contents (Elt Ideal)) (hx : ∀ i, ∃ r : ℝ, x0 i = (r : EReal)) :
    ∀ i, ∃ r : ℝ, val_main_v13 (F := Ideal) x0 x2 x3 i = (r : EReal) := by
  intro i
  refine Fin'.exists_real ?_
  unfold val_main_v13
  refine scatter_rows_real _ rfl rfl rfl rfl _ _ _ (fun j => ?_) (src_rows_real x0 x2 hx) i
  rw [val_main_v11_apply, val_main_cst_apply]
  show Fin' (Ideal.ofBits .f32 0x00000000#32)
  rw [Ideal.ofBits_zero_f32]; exact fin'_zero

/-- The per-domain row sums of x0 are real. -/
theorem dom_sum_real (x0 : (⟨S131072x256, .f32⟩ : BufTy).Contents (Elt Ideal)) (x1 : (⟨S131072, .i32⟩ : BufTy).Contents (Elt Ideal))
    (hx : ∀ i, ∃ r : ℝ, x0 i = (r : EReal)) : ∀ i, Fin' (val_main_v16 (F := Ideal) x0 x1 i) := by
  intro i
  unfold val_main_v16
  refine scatter_rows_real _ rfl rfl rfl rfl _ _ _ (fun j => ?_) (fun j => fin'_of_exists (hx j)) i
  rw [val_main_v14_apply, val_main_cst_1_apply]
  show Fin' (Ideal.ofBits .f32 0x00000000#32)
  rw [Ideal.ofBits_zero_f32]; exact fin'_zero

/-- The per-domain divisor max(count, 1) is at least one. -/
theorem one_le_divisor (x1 : (⟨S131072, .i32⟩ : BufTy).Contents (Elt Ideal)) (i : S16384x256.Idx) :
    (1 : EReal) ≤ val_main_v23 (F := Ideal) x1 i := by
  rw [val_main_v23_apply, val_main_v22_apply, val_main_v21_apply, val_main_cst_4_apply]
  show (1 : EReal) ≤ max (val_main_v20 (F := Ideal) x1 (idx_main_v23 i)) (Ideal.ofBits .f32 0x3F800000#32)
  rw [Ideal.ofBits_one_f32]
  exact le_max_right _ _

/-- The per-domain mean is real. -/
theorem dom_mean_real (x0 : (⟨S131072x256, .f32⟩ : BufTy).Contents (Elt Ideal)) (x1 : (⟨S131072, .i32⟩ : BufTy).Contents (Elt Ideal))
    (hx : ∀ i, ∃ r : ℝ, x0 i = (r : EReal)) : ∀ i, Fin' (val_main_v24 (F := Ideal) x0 x1 i) := by
  intro i
  rw [val_main_v24_apply]
  show Fin' (Ideal.div (val_main_v16 (F := Ideal) x0 x1 i) (val_main_v23 (F := Ideal) x1 i))
  exact fin'_div (dom_sum_real x0 x1 hx i) (one_le_divisor x1 i)

/-- The gathered rows of the per-domain mean are real. -/
theorem dom_real (x0 : (⟨S131072x256, .f32⟩ : BufTy).Contents (Elt Ideal)) (x1 : (⟨S131072, .i32⟩ : BufTy).Contents (Elt Ideal))
    (x4 : (⟨S2x65536, .i32⟩ : BufTy).Contents (Elt Ideal)) (hx : ∀ i, ∃ r : ℝ, x0 i = (r : EReal)) :
    ∀ i, ∃ r : ℝ, val_main_v33 (F := Ideal) x0 x1 x4 i = (r : EReal) := by
  intro i
  refine Fin'.exists_real ?_
  unfold val_main_v33
  exact gather_rows_real (by decide) _ rfl rfl rfl rfl rfl rfl rfl _ _ (dom_mean_real x0 x1 hx) i

end Cert.Transfer.Finite

end
-- ==== Proof.lean ====
/-
  The certificate of the first-order transfer layer.

  The tiled program computes, for N atoms in D domains, E edges in M intersections and four weight matrices,
      out = x·W_lin_idᵀ + y_int·W_tf_intᵀ + (x_inv·W_lin_invᵀ + y_inv·W_tf_invᵀ)[domain of each atom],
  where y_int = [y0 | y1 | y2] collects per target atom the gathered source rows, the intersection sums and the domain
  means of the edges aimed at it, and y_inv = [Σ msg | Σ dom] collects per target domain the messages aimed at it. The
  reference forms y_int and y_inv and multiplies by the whole weights; the kernel multiplies the messages by the weight
  blocks FIRST (one tiled product over the M messages), then gathers and sums the projected rows, and adds everything
  in two more tiled products. On the extended reals the two agree because all the rows that are summed are rows of real
  numbers when the inputs are finite (the mean's divisor is at least one), so a weight moves across each finite sum;
  the rest is regrouping of sums.

  The three frames are the generated ones (the reference's is its generated run with the result dropped); the ideal
  pass rewrote nothing, so the idealization claim is trivial; the algebraic claim pairs the kernel's run with its
  result named, read back through the three regions and the host operations between them, with the reference's run.
-/
import proofs.«116603_j10986526343793_2_alg».proof.Defs
import proofs.«116603_j10986526343793_2_alg».proof.Proof.Gen.Kernel
import proofs.«116603_j10986526343793_2_alg».proof.Proof.Gen.Kernel.Skeleton
import proofs.«116603_j10986526343793_2_alg».proof.Proof.Gen.Kernel.Launch
import proofs.«116603_j10986526343793_2_alg».proof.Proof.Gen.Kernel.Points
import proofs.«116603_j10986526343793_2_alg».proof.Proof.Gen.Kernel.Frame
import proofs.«116603_j10986526343793_2_alg».proof.Proof.Gen.KernelIdeal
import proofs.«116603_j10986526343793_2_alg».proof.Proof.Gen.KernelIdeal.Skeleton
import proofs.«116603_j10986526343793_2_alg».proof.Proof.Gen.KernelIdeal.Launch
import proofs.«116603_j10986526343793_2_alg».proof.Proof.Gen.KernelIdeal.Points
import proofs.«116603_j10986526343793_2_alg».proof.Proof.Gen.KernelIdeal.Frame
import proofs.«116603_j10986526343793_2_alg».proof.Proof.Gen.ReferenceIdeal
import proofs.«116603_j10986526343793_2_alg».proof.Proof.Gen.Pre_finite_inputs
import proofs.«116603_j10986526343793_2_alg».proof.Proof.Gen.ReferenceIdeal.Run
import proofs.«116603_j10986526343793_2_alg».proof.Proof.Gen.ReferenceIdeal.Read
import proofs.«116603_j10986526343793_2_alg».proof.Proof.KRun
import proofs.«116603_j10986526343793_2_alg».proof.Proof.KHost3
import proofs.«116603_j10986526343793_2_alg».proof.Proof.Bridge
import proofs.«116603_j10986526343793_2_alg».proof.Proof.Finite
import proofs.«116603_j10986526343793_2_alg».proof.Proof.RealRows
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the nine arguments, both programs end with the transfer
    layer's output as the kernel spells it; under finite inputs that is the reference's own function. -/
theorem algebraic : Cert.algebraic_KernelIdeal_ReferenceIdeal := by
  intro m ρ m' ρ' hpre hagree
  refine ⟨fun c => Cert.Transfer.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h5, h6⟩ := Cert.Transfer.Finite.real_of_fn _ _ _ _ _ _ _ _ _ (hpre c)
    rw [Cert.ReferenceIdeal.Read.val_main_v86_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Transfer.Bridge.out_eq_ref _ _ _ _ _ _ _ _ _
      (Cert.Transfer.Finite.msg_real _ _ _ h0) (Cert.Transfer.Finite.dom_real _ _ _ h0) h5 h6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
